-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S64 .f32) (main_arg5 : FVec F S64x40 .f32) (main_arg6 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x40 .f32 := Host.absf main_arg5
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg6
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : FVec F S128x64 .f32) (main_arg2 : FVec F S64 .f32) (main_arg3 : FVec F S64x64 .f32) (main_arg4 : FVec F S64 .f32) (main_arg5 : FVec F S64x40 .f32) (main_arg6 : FVec F S40 .f32) (main_arg7 : IVec S1600000 32) (main_arg8 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x64 : Shape := ⟨2, ![1, 64]⟩
abbrev S1x40 : Shape := ⟨2, ![1, 40]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1600000x64 : Shape := ⟨2, ![1600000, 64]⟩
abbrev S100000x40 : Shape := ⟨2, ![100000, 40]⟩
abbrev S5000x40 : Shape := ⟨2, ![5000, 40]⟩
abbrev S1600000x40 : Shape := ⟨2, ![1600000, 40]⟩

abbrev nBuf : Space → Nat
  | .hbm => 75
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x1, .f32⟩
  | .hbm, ⟨29, _⟩ => ⟨S1x64, .f32⟩
  | .hbm, ⟨30, _⟩ => ⟨S1x64, .f32⟩
  | .hbm, ⟨31, _⟩ => ⟨S1x40, .f32⟩
  | .hbm, ⟨32, _⟩ => ⟨S100000x64, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S100000x64, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x64, .f32⟩
  | .hbm, ⟨56, _⟩ => ⟨S_, .f32⟩
  | .hbm, ⟨57, _⟩ => ⟨S100000x64, .f32⟩
  | .hbm, ⟨58, _⟩ => ⟨S1600000x1, .i32⟩
  | .hbm, ⟨59, _⟩ => ⟨S100000x64, .f32⟩
  | .hbm, ⟨60, _⟩ => ⟨S100000x40, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x40, .f32⟩
  | .hbm, ⟨70, _⟩ => ⟨S_, .f32⟩
  | .hbm, ⟨71, _⟩ => ⟨S100000x40, .f32⟩
  | .hbm, ⟨72, _⟩ => ⟨S1600000x1, .i32⟩
  | .hbm, ⟨73, _⟩ => ⟨S100000x40, .f32⟩
  | .hbm, ⟨74, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x64, .f32⟩
  | .local _ .vmem, ⟨13, _⟩ => ⟨S5000x1, .f32⟩
  | .local _ .vmem, ⟨14, _⟩ => ⟨S5000x1, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x1, .f32⟩
  | .local _ .vmem, ⟨20, _⟩ => ⟨S5000x1, .f32⟩
  | .local _ .vmem, ⟨21, _⟩ => ⟨S1x64, .f32⟩
  | .local _ .vmem, ⟨22, _⟩ => ⟨S64x40, .f32⟩
  | .local _ .vmem, ⟨23, _⟩ => ⟨S5000x1, .f32⟩
  | .local _ .vmem, ⟨24, _⟩ => ⟨S5000x1, .f32⟩
  | .local _ .vmem, ⟨25, _⟩ => ⟨S5000x40, .f32⟩
  | .local _ .vmem, ⟨26, _⟩ => ⟨S5000x40, .f32⟩
  | .local _ .vmem, ⟨27, _⟩ => ⟨S5000x40, .f32⟩
  | .local _ .vmem, ⟨28, _⟩ => ⟨S5000x40, .f32⟩
  | .local _ .vmem, ⟨29, _⟩ => ⟨S5000x1, .f32⟩
  | .local _ .vmem, ⟨30, _⟩ => ⟨S5000x1, .f32⟩
  | .local _ .vmem, ⟨31, _⟩ => ⟨S1x40, .f32⟩
  | .local _ .vmem, ⟨32, _⟩ => ⟨S5000x40, .f32⟩
  | .local _ .vmem, ⟨33, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_9 : Ref sig .tc := ⟨.hbm, 61, rfl⟩
abbrev main_v41 : Ref sig .tc := ⟨.hbm, 62, rfl⟩
abbrev main_v42 : Ref sig .tc := ⟨.hbm, 63, rfl⟩
abbrev main_c_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_11 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem4_1 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem3_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S64_S1x64 : S64.ShapeCasts S1x64
  shapeCasts_S40_S1x40 : S40.ShapeCasts S1x40
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S64x40_S64x40_0_0 : ∀ a, (![0, 0] : Fin 2 → Nat) a + S64x40.size a ≤ S64x40.size a
  h_S64x40 : 0 < S64x40.numel
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  bcast_S_S100000x40 : S_.BroadcastsInDim S100000x40 (![] : Fin 0 → Fin S100000x40.rank)
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S100000x1.size a
  hwx1_4 : ∀ i : grid1.Coords, EltTy.bits .f32 = 32 ∨ (Rect.block (s := S100000x1) S5000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x40.size a ≤ S64x40.size a
  hwx2_3 : ∀ i : grid2.Coords, EltTy.bits .f32 = 32 ∨ (Rect.block (s := S64x40) S64x40.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x1.size a ≤ S100000x1.size a
  hwx2_4 : ∀ i : grid2.Coords, EltTy.bits .f32 = 32 ∨ (Rect.block (s := S100000x1) S5000x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x40.size a ≤ S100000x40.size a
  hwx2_5 : ∀ i : grid2.Coords, EltTy.bits .f32 = 32 ∨ (Rect.block (s := S100000x40) S5000x40.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x40.size a ≤ S100000x40.size a
  hwx3_3 : ∀ i : grid3.Coords, EltTy.bits .f32 = 32 ∨ (Rect.block (s := S100000x40) S5000x40.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S64x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v13) S5000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v40) S5000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v50) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v51) S5000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S100000x1 : Shape := ⟨2, ![100000, 1]⟩
abbrev S1600000x64 : Shape := ⟨2, ![1600000, 64]⟩
abbrev S1x64 : Shape := ⟨2, ![1, 64]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 102
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x64, .f32⟩
  | .hbm, ⟨28, _⟩ => ⟨S100000x1, .f32⟩
  | .hbm, ⟨29, _⟩ => ⟨S100000x64, .f32⟩
  | .hbm, ⟨30, _⟩ => ⟨S100000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S1600000x1, .i32⟩
  | .hbm, ⟨43, _⟩ => ⟨S100000x64, .f32⟩
  | .hbm, ⟨44, _⟩ => ⟨S100000x1, .f32⟩
  | .hbm, ⟨45, _⟩ => ⟨S100000x64, .f32⟩
  | .hbm, ⟨46, _⟩ => ⟨S100000x64, .f32⟩
  | .hbm, ⟨47, _⟩ => ⟨S1x64, .f32⟩
  | .hbm, ⟨48, _⟩ => ⟨S100000x64, .f32⟩
  | .hbm, ⟨49, _⟩ => ⟨S100000x64, .f32⟩
  | .hbm, ⟨50, _⟩ => ⟨S_, .f32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S100000x1, .f32⟩
  | .hbm, ⟨55, _⟩ => ⟨S100000x64, .f32⟩
  | .hbm, ⟨56, _⟩ => ⟨S100000x64, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x64, .f32⟩
  | .hbm, ⟨66, _⟩ => ⟨S_, .f32⟩
  | .hbm, ⟨67, _⟩ => ⟨S100000x64, .f32⟩
  | .hbm, ⟨68, _⟩ => ⟨S1600000x1, .i32⟩
  | .hbm, ⟨69, _⟩ => ⟨S100000x64, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S_, .f32⟩
  | .hbm, ⟨77, _⟩ => ⟨S100000x64, .f32⟩
  | .hbm, ⟨78, _⟩ => ⟨S100000x64, .f32⟩
  | .hbm, ⟨79, _⟩ => ⟨S100000x40, .f32⟩
  | .hbm, ⟨80, _⟩ => ⟨S100000x1, .f32⟩
  | .hbm, ⟨81, _⟩ => ⟨S100000x40, .f32⟩
  | .hbm, ⟨82, _⟩ => ⟨S100000x40, .f32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000x40, .f32⟩
  | .hbm, ⟨92, _⟩ => ⟨S_, .f32⟩
  | .hbm, ⟨93, _⟩ => ⟨S100000x40, .f32⟩
  | .hbm, ⟨94, _⟩ => ⟨S1600000x1, .i32⟩
  | .hbm, ⟨95, _⟩ => ⟨S100000x40, .f32⟩
  | .hbm, ⟨96, _⟩ => ⟨S100000x1, .f32⟩
  | .hbm, ⟨97, _⟩ => ⟨S100000x40, .f32⟩
  | .hbm, ⟨98, _⟩ => ⟨S100000x40, .f32⟩
  | .hbm, ⟨99, _⟩ => ⟨S1x40, .f32⟩
  | .hbm, ⟨100, _⟩ => ⟨S100000x40, .f32⟩
  | .hbm, ⟨101, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_6 : Ref sig .tc := ⟨.hbm, 57, rfl⟩
abbrev main_v38 : Ref sig .tc := ⟨.hbm, 58, rfl⟩
abbrev main_v39 : Ref sig .tc := ⟨.hbm, 59, rfl⟩
abbrev main_c_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call1_cst : Ref sig .tc := ⟨.hbm, 76, rfl⟩
abbrev main_call1_v0 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_9 : Ref sig .tc := ⟨.hbm, 83, rfl⟩
abbrev main_v59 : Ref sig .tc := ⟨.hbm, 84, rfl⟩
abbrev main_v60 : Ref sig .tc := ⟨.hbm, 85, rfl⟩
abbrev main_c_10 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_11 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S100000x1_S100000x40_0_1 : S100000x1.BroadcastsInDim S100000x40 (![0, 1] : Fin 2 → Fin S100000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KernelRun.lean ====
/-
  The idealized kernel's run, with its result named.

  The frame run of the four regions among their host stretches ends, on every core, with every unscoped buffer at the last
  boundary's contents `W8`: the fold of the host stretches and of the regions' write-backs from the launch memory. The
  frame claim reads only the arguments off that final state; here the result buffer is read off it too, so that the result
  is `W8` at the result's reference — a pure term of the launch memory, which the value lemmas then open stage by stage.
-/
import proofs.«174319_j5128190951839_1_alg».proof.Proof.KernelIdealFrameP

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates with the result buffer at the last boundary's contents and the
    arguments as launched. -/
theorem run_value : θ_run defs (onTc (τ := τ) (main (F := F))) ⟨m, fun _ => 0, ρ⟩ (fun r => ∀ c : Dev nD,
      r.2.mem ((c.tc : Thread nD τ).loc main_v51) = W8 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v51 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.Run

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibNodeMean.lean ====
/-
  The neighbour mean as whole arrays: a sum per node and feature, scaled by the node's clamped count.

  A per-node vector `v` laid along the feature axis — first as a column `[N, 1]`, then repeated `K` times — reads `v p`
  at every entry `(p, k)`. With `c` the per-node counts, the array of sums multiplied by the broadcast of
  `1 / max c 1` is, entry by entry, the array of sums divided by the broadcast of `max c 1`: the divisor is at least one,
  so never zero, and off zero the quotient of extended reals is the product with the inverse whatever the dividend.
-/
import Idealize.ShloMosaic.PureOps.Ideal.Laws
import Idealize.ShloMosaic.Lib.ValueIdx
import Idealize.ShloMosaic.Lib.Pipeline.Value

noncomputable section

namespace Cert.Lib

open Idealize.ShloMosaic Idealize.ShloMosaic.ValueIdx

/-- The word `0x3F800000` is the number one. -/
theorem one_word_f32 : Ideal.ofBits .f32 0x3F800000#32 = 1 := by
  simp [Ideal.ofBits, Ideal.ieee, -EReal.coe_mul]; norm_num

variable {α : Type} {N K : ℕ}

/-- A per-node vector as a column `[N, 1]`, then repeated along a second axis of extent `K`: at `(p, k)` it is `v p`. -/
theorem nodeBroadcast_apply (v : (⟨1, ![N]⟩ : Shape).Idx → α)
    (h1 : (⟨1, ![N]⟩ : Shape).BroadcastsInDim ⟨2, ![N, 1]⟩ (![0] : Fin 1 → Fin 2))
    (h2 : (⟨2, ![N, 1]⟩ : Shape).BroadcastsInDim ⟨2, ![N, K]⟩ (![0, 1] : Fin 2 → Fin 2)) (p : Fin N) (k : Fin K) :
    broadcastInDim ⟨2, ![N, K]⟩ ![0, 1] h2 (broadcastInDim ⟨2, ![N, 1]⟩ ![0] h1 v) (ix2 p k) = v (ix1 p) := by
  refine (broadcastInDim_apply _ h2 _ (ix2 p k) (ix2 p (0 : Fin 1)) fun a => ?_).trans
    (broadcastInDim_apply _ h1 v (ix2 p (0 : Fin 1)) (ix1 p) fun a => ?_)
  · match a with
    | ⟨0, _⟩ =>
      show p.val = if N = 1 then 0 else p.val
      have hp : p.val < N := p.isLt
      split
      · omega
      · rfl
    | ⟨1, _⟩ => show 0 = if (1 : ℕ) = 1 then 0 else k.val; rw [if_pos rfl]
  · match a with
    | ⟨0, _⟩ =>
      show p.val = if N = 1 then 0 else p.val
      have hp : p.val < N := p.isLt
      split
      · omega
      · rfl

/-- A scalar repeated over a vector reads the scalar everywhere. -/
theorem scalarBroadcast_apply (x : (⟨0, ![]⟩ : Shape).Idx → α)
    (h0 : (⟨0, ![]⟩ : Shape).BroadcastsInDim ⟨1, ![N]⟩ (![] : Fin 0 → Fin 1)) (i : (⟨1, ![N]⟩ : Shape).Idx) :
    broadcastInDim ⟨1, ![N]⟩ ![] h0 x i = x ix0 :=
  broadcastInDim_apply _ h0 x i ix0 fun a => a.elim0

/-- THE MEAN, either way: the sums times the broadcast reciprocal of the clamped counts are the sums divided by the
    broadcast clamped counts, as whole arrays on the extended reals. -/
theorem mean_by_reciprocal (S : FVec Ideal ⟨2, ![N, K]⟩ .f32) (cnt : FVec Ideal ⟨1, ![N]⟩ .f32)
    (h0 : (⟨0, ![]⟩ : Shape).BroadcastsInDim ⟨1, ![N]⟩ (![] : Fin 0 → Fin 1))
    (h1 : (⟨1, ![N]⟩ : Shape).BroadcastsInDim ⟨2, ![N, 1]⟩ (![0] : Fin 1 → Fin 2))
    (h2 : (⟨2, ![N, 1]⟩ : Shape).BroadcastsInDim ⟨2, ![N, K]⟩ (![0, 1] : Fin 2 → Fin 2)) :
    mulf S (broadcastInDim ⟨2, ![N, K]⟩ ![0, 1] h2 (broadcastInDim ⟨2, ![N, 1]⟩ ![0] h1
        (Host.divf (broadcastInDim ⟨1, ![N]⟩ ![] h0 (constant (F := Ideal) ⟨0, ![]⟩ .f32 0x3F800000#32))
          (maximumf cnt (broadcastInDim ⟨1, ![N]⟩ ![] h0 (constant (F := Ideal) ⟨0, ![]⟩ .f32 0x3F800000#32))))))
      = Host.divf S (broadcastInDim ⟨2, ![N, K]⟩ ![0, 1] h2 (broadcastInDim ⟨2, ![N, 1]⟩ ![0] h1
          (maximumf cnt (broadcastInDim ⟨1, ![N]⟩ ![] h0 (constant (F := Ideal) ⟨0, ![]⟩ .f32 0x3F800000#32))))) := by
  funext i
  obtain ⟨p, k, rfl⟩ : ∃ (p : Fin N) (k : Fin K), i = ix2 p k := ⟨i 0, i 1, eq_ix2 i⟩
  have e1 := nodeBroadcast_apply
    (Host.divf (broadcastInDim ⟨1, ![N]⟩ ![] h0 (constant (F := Ideal) ⟨0, ![]⟩ .f32 0x3F800000#32))
      (maximumf cnt (broadcastInDim ⟨1, ![N]⟩ ![] h0 (constant (F := Ideal) ⟨0, ![]⟩ .f32 0x3F800000#32)))) h1 h2 p k
  have e2 := nodeBroadcast_apply
    (maximumf cnt (broadcastInDim ⟨1, ![N]⟩ ![] h0 (constant (F := Ideal) ⟨0, ![]⟩ .f32 0x3F800000#32))) h1 h2 p k
  have e0 : broadcastInDim ⟨1, ![N]⟩ ![] h0 (constant (F := Ideal) ⟨0, ![]⟩ .f32 0x3F800000#32) (ix1 p) = (1 : EReal) :=
    (scalarBroadcast_apply _ h0 (ix1 p)).trans one_word_f32
  show S (ix2 p k) * _ = Ideal.div (S (ix2 p k)) _
  rw [e1, e2]
  show S (ix2 p k) * Ideal.div (broadcastInDim ⟨1, ![N]⟩ ![] h0 (constant (F := Ideal) ⟨0, ![]⟩ .f32 0x3F800000#32) (ix1 p))
      (max (cnt (ix1 p)) (broadcastInDim ⟨1, ![N]⟩ ![] h0 (constant (F := Ideal) ⟨0, ![]⟩ .f32 0x3F800000#32) (ix1 p)))
    = Ideal.div (S (ix2 p k))
      (max (cnt (ix1 p)) (broadcastInDim ⟨1, ![N]⟩ ![] h0 (constant (F := Ideal) ⟨0, ![]⟩ .f32 0x3F800000#32) (ix1 p)))
  rw [e0]
  have hy : max (cnt (ix1 p)) (1 : EReal) ≠ 0 := ne_of_gt (lt_of_lt_of_le zero_lt_one (le_max_right _ _))
  unfold Ideal.div
  rw [if_neg hy, if_neg hy, one_mul]

end Cert.Lib

end
-- ==== Proof.LibAsRow.lean ====
/-
  A vector as one row.

  A vector of `n` entries laid out as a `[1, n]` array reads, at `(u, k)`, the vector's entry `k`. Two layout operations
  produce that array: a reshape `[n] → [1, n]`, and a broadcast of `[n]` into `[1, n]` that sends the vector's axis to
  the array's second axis. Both are the same function of the vector.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type} {n : ℕ}

/-- The `[1, n]` array whose one row is the vector `v`. -/
def asRow (v : (⟨1, ![n]⟩ : Shape).Idx → α) : (⟨2, ![1, n]⟩ : Shape).Idx → α := fun i => v (ix1 (i 1))

theorem asRow_apply (v : (⟨1, ![n]⟩ : Shape).Idx → α) (u : Fin 1) (k : Fin n) : asRow v (ix2 u k) = v (ix1 k) := rfl

/-- A vector reshaped to `[1, n]` is the vector as one row. -/
theorem shapeCast_eq_asRow (v : (⟨1, ![n]⟩ : Shape).Idx → α) (h : (⟨1, ![n]⟩ : Shape).ShapeCasts ⟨2, ![1, n]⟩) :
    shapeCast ⟨2, ![1, n]⟩ v h = asRow v :=
  funext fun i => (congrArg (shapeCast ⟨2, ![1, n]⟩ v h) (eq_ix2 i)).trans (shapeCast_a_1a_apply v h (i 0) (i 1))

/-- A vector broadcast into `[1, n]` along the second axis is the vector as one row. -/
theorem broadcastInDim_eq_asRow (v : (⟨1, ![n]⟩ : Shape).Idx → α)
    (h : (⟨1, ![n]⟩ : Shape).BroadcastsInDim ⟨2, ![1, n]⟩ (![1] : Fin 1 → Fin 2)) :
    broadcastInDim ⟨2, ![1, n]⟩ ![1] h v = asRow v :=
  funext fun i => broadcastInDim_apply _ h v i (ix1 (i 1)) (fun a => match a with
    | ⟨0, _⟩ => by
      show (i 1).val = if n = 1 then 0 else (i 1).val
      have h1 : (i 1).val < n := (i 1).isLt
      split
      · omega
      · rfl)

end Cert.Lib

end
-- ==== Proof.LibSlabs.lean ====
/-
  Slabs, unit axes and row broadcasts, read at an index.

  Layout operations that stacked arrays meet on both sides of a kernel and its reference. On the host: a one-row array
  broadcast down `R` rows; an array given a new leading unit axis by a broadcast; slab `l` of an array stacked along its first
  axis, cut out by a slice and its unit axis dropped (rank 3 to a matrix, rank 2 to a vector); a matrix given a unit axis
  between its two axes by a reshape. In a kernel: the unit-stride rectangle that is slab `l` of a rank-3 buffer, its own
  index `(0, p, k)` placed at `(l, p, k)`, and a load through it. Each is stated over any element type and over literal
  coordinates, so that it fires on indices built by `ix1`, `ix2`, `ix3`.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type}

/-! ## Host broadcasts -/

/-- A one-row array broadcast to `R` rows (axes kept in place) reads, at `(r, n)`, the row's entry `n`. -/
theorem rows_of_oneRow {R N : ℕ} (hb2 : (⟨2, ![1, N]⟩ : Shape).BroadcastsInDim ⟨2, ![R, N]⟩ (![0, 1] : Fin 2 → Fin 2))
    (v : (⟨2, ![1, N]⟩ : Shape).Idx → α) (r : Fin R) (n : Fin N) :
    broadcastInDim ⟨2, ![R, N]⟩ ![0, 1] hb2 v (ix2 r n) = v (ix2 (0 : Fin 1) n) :=
  broadcastInDim_apply _ hb2 v (ix2 r n) (ix2 (0 : Fin 1) n) (fun a => match a with
    | ⟨0, _⟩ => by
      show (0 : ℕ) = if (1 : ℕ) = 1 then 0 else r.val
      rw [if_pos rfl]
    | ⟨1, _⟩ => by
      show n.val = if N = 1 then 0 else n.val
      have h1 : n.val < N := n.isLt
      split
      · omega
      · rfl)

/-- A matrix broadcast under a new leading unit axis reads, at `(0, p, k)`, the matrix's `(p, k)`. -/
theorem addUnit_bcast_at {a b : ℕ} (hb : (⟨2, ![a, b]⟩ : Shape).BroadcastsInDim ⟨3, ![1, a, b]⟩ (![1, 2] : Fin 2 → Fin 3))
    (v : (⟨2, ![a, b]⟩ : Shape).Idx → α) (u : Fin 1) (p : Fin a) (k : Fin b) :
    broadcastInDim ⟨3, ![1, a, b]⟩ ![1, 2] hb v (ix3 u p k) = v (ix2 p k) :=
  broadcastInDim_apply _ hb v (ix3 u p k) (ix2 p k) (fun ax => match ax with
    | ⟨0, _⟩ => by
      show p.val = if a = 1 then 0 else p.val
      have h1 : p.val < a := p.isLt
      split
      · omega
      · rfl
    | ⟨1, _⟩ => by
      show k.val = if b = 1 then 0 else k.val
      have h1 : k.val < b := k.isLt
      split
      · omega
      · rfl)

/-! ## A layer's slab of a stacked host array -/

/-- Slab `l` of an array stacked along its first axis, its unit axis dropped: entry `(p, k)` is the array's `(l, p, k)`. -/
theorem hostSlab3 {n0 a b l : ℕ} (hl : l < n0) (X : (⟨3, ![n0, a, b]⟩ : Shape).Idx → α)
    (hs : (⟨3, ![n0, a, b]⟩ : Shape).Slices ![l, 0, 0] ⟨3, ![1, a, b]⟩)
    (hc : (⟨3, ![1, a, b]⟩ : Shape).ShapeCasts ⟨2, ![a, b]⟩) (p : Fin a) (k : Fin b) :
    shapeCast ⟨2, ![a, b]⟩ (extractStridedSlice ⟨3, ![1, a, b]⟩ ![l, 0, 0] X hs) hc (ix2 p k) = X (ix3 (⟨l, hl⟩ : Fin n0) p k) := by
  rw [shapeCast_1ab_ab_apply]
  exact extractStridedSlice_apply _ X hs _ _ (fun ax => match ax with
    | ⟨0, _⟩ => (Nat.add_zero l).symm
    | ⟨1, _⟩ => (Nat.zero_add _).symm
    | ⟨2, _⟩ => (Nat.zero_add _).symm)

/-- Row `l` of a matrix as a vector: entry `n` is the matrix's `(l, n)`. -/
theorem hostSlab2 {n0 a l : ℕ} (hl : l < n0) (X : (⟨2, ![n0, a]⟩ : Shape).Idx → α)
    (hs : (⟨2, ![n0, a]⟩ : Shape).Slices ![l, 0] ⟨2, ![1, a]⟩)
    (hc : (⟨2, ![1, a]⟩ : Shape).ShapeCasts ⟨1, ![a]⟩) (n : Fin a) :
    shapeCast ⟨1, ![a]⟩ (extractStridedSlice ⟨2, ![1, a]⟩ ![l, 0] X hs) hc (ix1 n) = X (ix2 (⟨l, hl⟩ : Fin n0) n) := by
  rw [shapeCast_1a_a_apply]
  exact slice2_axis0_apply l X hs (0 : Fin 1) n ⟨l, hl⟩ (Nat.add_zero l).symm

/-- A matrix with a unit axis put between its two axes: entry `(l, 0, n)` is the matrix's `(l, n)`. -/
theorem midUnit_at {a b : ℕ} (X : (⟨2, ![a, b]⟩ : Shape).Idx → α)
    (h : (⟨2, ![a, b]⟩ : Shape).ShapeCasts ⟨3, ![a, 1, b]⟩) (l : Fin a) (u : Fin 1) (n : Fin b) :
    shapeCast ⟨3, ![a, 1, b]⟩ X h (ix3 l u n) = X (ix2 l n) :=
  shapeCast_apply X h _ _ (by
    have hu : u.val = 0 := by omega
    rw [Shape.rowMajor_val_three, Shape.rowMajor_val_two]
    show l.val * b + n.val = (l.val * 1 + u.val) * b + n.val
    rw [hu, Nat.mul_one, Nat.add_zero])

/-! ## A layer's slab of a stacked buffer in a kernel -/

/-- Slab `l` of a buffer stacked along its first axis: its own index `(0, p, k)` sits at `(l, p, k)`. -/
theorem slab_emb {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (x : (⟨3, ![1, a, b]⟩ : Shape).Idx) :
    (Rect.unit (s := ⟨3, ![n0, a, b]⟩) off ![1, a, b] inb).emb x = ix3 (⟨l, hl⟩ : Fin n0) (x 1) (x 2) := by
  subst ho
  funext ax
  match ax with
  | ⟨0, _⟩ =>
    have h0 : (x 0).val < 1 := (x 0).isLt
    exact Fin.ext (show l + 1 * (x 0).val = l by omega)
  | ⟨1, _⟩ => exact Fin.ext (show 0 + 1 * (x 1).val = (x 1).val by omega)
  | ⟨2, _⟩ => exact Fin.ext (show 0 + 1 * (x 2).val = (x 2).val by omega)

/-- What a load of slab `l` reads at `(0, p, k)` — the buffer's contents at the slab's embedded index — is the contents
    at `(l, p, k)`. -/
theorem ld_slab {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (X : (⟨3, ![n0, a, b]⟩ : Shape).Idx → α) (u : Fin 1) (p : Fin a) (k : Fin b) :
    X ((Rect.unit (s := ⟨3, ![n0, a, b]⟩) off ![1, a, b] inb).emb (ix3 u p k)) = X (ix3 (⟨l, hl⟩ : Fin n0) p k) :=
  congrArg X (slab_emb ho inb hl (ix3 u p k))

end Cert.Lib

end
-- ==== Proof.LibGraphConvLayer.lean ====
/-
  One graph-convolution layer, entry by entry, and the host's spelling of its three steps (any numbers of nodes and features).

  With node features `X` (one row per node), weights `W`, and per-node scales laid as columns `[N, 1]`:
  * `project X W s` is the feature product with every row scaled by its node's scale: entry `(p, q)` is
    `(∑ k, X (p, k) · W (k, q)) · s p`;
  * `finish A d b` scales row `p` of the aggregated features `A` by `d p` and adds the bias row: entry `(p, q)` is
    `A (p, q) · d p + b q`;
  * `relu Z` is the entrywise maximum with zero (the word `0x00000000`, never evaluated).
  The host writes the scale of a node vector `v` as two broadcasts `[N] → [N, 1] → [N, M]` and the bias as
  `[M] → [1, M] → [N, M]`; read at an index these are `v p` and `b q`, which is what the column `reshape v` and the
  row `reshape b` hold at `(p, 0)` and `(0, q)`. So each host step is one of the three functions above, as whole arrays.
-/
import Idealize.ShloMosaic.PureOps.Ideal.Laws
import Idealize.ShloMosaic.Lib.ValueIdx
import Idealize.ShloMosaic.Lib.Pipeline.Value
import Idealize.ShloMosaic.Lib.ValueLayout
import proofs.«174319_j5128190951839_1_alg».proof.Proof.LibMatDot
import proofs.«174319_j5128190951839_1_alg».proof.Proof.LibColumn
import proofs.«174319_j5128190951839_1_alg».proof.Proof.LibNodeMean
import proofs.«174319_j5128190951839_1_alg».proof.Proof.LibAsRow
import proofs.«174319_j5128190951839_1_alg».proof.Proof.LibSlabs

noncomputable section

namespace Cert.Layer

open Idealize.ShloMosaic Idealize.ShloMosaic.ValueIdx Cert.Lib
open scoped BigOperators

variable {N K M : ℕ}

/-- The feature product with row `p` scaled by the column's entry `p`. -/
def project (X : FVec Ideal ⟨2, ![N, K]⟩ .f32) (W : FVec Ideal ⟨2, ![K, M]⟩ .f32) (s : FVec Ideal ⟨2, ![N, 1]⟩ .f32) :
    FVec Ideal ⟨2, ![N, M]⟩ .f32 :=
  fun i => (∑ k : Fin K, X (ix2 (i 0) k) * W (ix2 k (i 1))) * s (ix2 (i 0) (0 : Fin 1))

theorem project_apply (X : FVec Ideal ⟨2, ![N, K]⟩ .f32) (W : FVec Ideal ⟨2, ![K, M]⟩ .f32) (s : FVec Ideal ⟨2, ![N, 1]⟩ .f32)
    (p : Fin N) (q : Fin M) :
    project X W s (ix2 p q) = (∑ k : Fin K, X (ix2 p k) * W (ix2 k q)) * s (ix2 p (0 : Fin 1)) := rfl

/-- Row `p` scaled by the column's entry `p`, plus the bias row. -/
def finish (A : FVec Ideal ⟨2, ![N, M]⟩ .f32) (d : FVec Ideal ⟨2, ![N, 1]⟩ .f32) (b : FVec Ideal ⟨2, ![1, M]⟩ .f32) :
    FVec Ideal ⟨2, ![N, M]⟩ .f32 :=
  fun i => A i * d (ix2 (i 0) (0 : Fin 1)) + b (ix2 (0 : Fin 1) (i 1))

theorem finish_apply (A : FVec Ideal ⟨2, ![N, M]⟩ .f32) (d : FVec Ideal ⟨2, ![N, 1]⟩ .f32) (b : FVec Ideal ⟨2, ![1, M]⟩ .f32)
    (p : Fin N) (q : Fin M) :
    finish A d b (ix2 p q) = A (ix2 p q) * d (ix2 p (0 : Fin 1)) + b (ix2 (0 : Fin 1) q) := rfl

/-- The entrywise maximum with zero. -/
def relu (Z : FVec Ideal ⟨2, ![N, M]⟩ .f32) : FVec Ideal ⟨2, ![N, M]⟩ .f32 :=
  fun i => max (Z i) (Ideal.ofBits .f32 0x00000000#32)

theorem relu_apply (Z : FVec Ideal ⟨2, ![N, M]⟩ .f32) (i : (⟨2, ![N, M]⟩ : Shape).Idx) :
    relu Z i = max (Z i) (Ideal.ofBits .f32 0x00000000#32) := rfl

/-! ## The host's spelling -/

/-- The host's `(X · W) * v[:, None]` is `project` at the column `reshape v`. -/
theorem host_project (wf : DotDims.WF ⟨2, ![N, K]⟩ ⟨2, ![K, M]⟩ ⟨2, ![N, M]⟩ [1] [0] [0] [1] [] [])
    (h1 : (⟨1, ![N]⟩ : Shape).BroadcastsInDim ⟨2, ![N, 1]⟩ (![0] : Fin 1 → Fin 2))
    (h2 : (⟨2, ![N, 1]⟩ : Shape).BroadcastsInDim ⟨2, ![N, M]⟩ (![0, 1] : Fin 2 → Fin 2))
    (hc : (⟨1, ![N]⟩ : Shape).ShapeCasts ⟨2, ![N, 1]⟩)
    (X : FVec Ideal ⟨2, ![N, K]⟩ .f32) (W : FVec Ideal ⟨2, ![K, M]⟩ .f32) (v : FVec Ideal ⟨1, ![N]⟩ .f32) :
    mulf (Host.dotGeneral (matDot wf) none X W)
        (broadcastInDim ⟨2, ![N, M]⟩ ![0, 1] h2 (broadcastInDim ⟨2, ![N, 1]⟩ ![0] h1 v))
      = project X W (shapeCast ⟨2, ![N, 1]⟩ v hc) := by
  funext i
  obtain ⟨p, q, rfl⟩ : ∃ (p : Fin N) (q : Fin M), i = ix2 p q := ⟨i 0, i 1, eq_ix2 i⟩
  rw [mulf_apply, nodeBroadcast_apply, project_apply, shapeCast_a_a1_apply]
  simp only [Host.dotGeneral]
  rw [dotGeneral_plain_apply]

/-- The host's `A * v[:, None] + b` is `finish` at the column `reshape v` and the row `reshape b`. -/
theorem host_finish
    (h1 : (⟨1, ![N]⟩ : Shape).BroadcastsInDim ⟨2, ![N, 1]⟩ (![0] : Fin 1 → Fin 2))
    (h2 : (⟨2, ![N, 1]⟩ : Shape).BroadcastsInDim ⟨2, ![N, M]⟩ (![0, 1] : Fin 2 → Fin 2))
    (h3 : (⟨1, ![M]⟩ : Shape).BroadcastsInDim ⟨2, ![1, M]⟩ (![1] : Fin 1 → Fin 2))
    (h4 : (⟨2, ![1, M]⟩ : Shape).BroadcastsInDim ⟨2, ![N, M]⟩ (![0, 1] : Fin 2 → Fin 2))
    (hc : (⟨1, ![N]⟩ : Shape).ShapeCasts ⟨2, ![N, 1]⟩) (hr : (⟨1, ![M]⟩ : Shape).ShapeCasts ⟨2, ![1, M]⟩)
    (A : FVec Ideal ⟨2, ![N, M]⟩ .f32) (v : FVec Ideal ⟨1, ![N]⟩ .f32) (b : FVec Ideal ⟨1, ![M]⟩ .f32) :
    addf (mulf A (broadcastInDim ⟨2, ![N, M]⟩ ![0, 1] h2 (broadcastInDim ⟨2, ![N, 1]⟩ ![0] h1 v)))
        (broadcastInDim ⟨2, ![N, M]⟩ ![0, 1] h4 (broadcastInDim ⟨2, ![1, M]⟩ ![1] h3 b))
      = finish A (shapeCast ⟨2, ![N, 1]⟩ v hc) (shapeCast ⟨2, ![1, M]⟩ b hr) := by
  funext i
  obtain ⟨p, q, rfl⟩ : ∃ (p : Fin N) (q : Fin M), i = ix2 p q := ⟨i 0, i 1, eq_ix2 i⟩
  rw [addf_apply, mulf_apply, nodeBroadcast_apply, rows_of_oneRow, finish_apply, shapeCast_a_a1_apply,
    broadcastInDim_eq_asRow, shapeCast_eq_asRow]

/-- The host's `relu`: the maximum with a broadcast zero. -/
theorem host_relu (h0 : (⟨0, ![]⟩ : Shape).BroadcastsInDim ⟨2, ![N, M]⟩ (![] : Fin 0 → Fin 2))
    (Z : FVec Ideal ⟨2, ![N, M]⟩ .f32) :
    maximumf Z (broadcastInDim ⟨2, ![N, M]⟩ ![] h0 (constant (F := Ideal) ⟨0, ![]⟩ .f32 0x00000000#32)) = relu Z := by
  funext i
  rw [maximumf_apply, relu_apply]
  exact congrArg (max (Z i)) (broadcastInDim_apply _ h0 _ i ix0 fun a => a.elim0)

end Cert.Layer

end
-- ==== Proof.Region0.lean ====
/-
  The first pallas_call as one function of the arrays it finds.

  Its grid has 20 points; point `t` reads rows `5000 t … 5000 t + 4999` of the features and of the scale column, the whole
  weight matrix, and writes the same rows of the result. The body multiplies the row block by the weights (the change of
  format before the product is the identity on extended reals) and scales each row by its node's entry of the column. So row
  `5000 t + p` of the result is `project` of the whole arrays at that row, and the 20 blocks tile the result array.
-/
import proofs.«174319_j5128190951839_1_alg».proof.Proof.KernelIdealFrameP
import proofs.«174319_j5128190951839_1_alg».proof.Proof.LibGraphConvLayer
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Reg0

open Cert.KernelIdeal Cert.KernelIdeal.Gen Cert.KernelIdeal.GenP Cert.Layer Cert.Lib

variable (V : (c : Dev nD) → (b : Ref sig .tc) → Buf (Elt Ideal) ((c : Thread nD τ).loc b))

theorem hz : (![0, 0] : Fin 2 → Nat) = fun _ => 0 := funext fun a => by fin_cases a <;> rfl

/-- The body's stored value at `(p, q)`: row `p` of the loaded block against column `q` of the weights, times the
    block's scale entry `p`. -/
theorem pay_apply (x0 : Vec Ideal S5000x128 .f32) (x1 : Vec Ideal S128x64 .f32) (x2 : Vec Ideal S5000x1 .f32)
    (p : Fin 5000) (q : Fin 64) :
    k0_pay1 x0 x1 x2 (ix2 p q) = (∑ k : Fin 128, x0 (ix2 p k) * x1 (ix2 k q)) * x2 (ix2 p (0 : Fin 1)) := by
  unfold k0_pay1
  rw [mulf_apply, broadcastTo_a1_ab_apply, shapeCast_self]
  exact congrArg (· * x2 (ix2 p (0 : Fin 1)))
    (matmul_plain_zero_apply dot_S5000x128_S128x64_S5000x64_1_0_0_1_n_n_wf none _ _ p q)

/-- The stored value at a block index `j` is `project` of whole arrays at an index `i`, once the loaded blocks are known to
    hold the arrays' entries that `project` reads at `i`: row `i 0` of the features and of the scale, column `i 1` of the weights. -/
theorem block_eq (X : FVec Ideal S100000x128 .f32) (Wt : FVec Ideal S128x64 .f32) (nc : FVec Ideal S100000x1 .f32)
    (x0 : Vec Ideal S5000x128 .f32) (x1 : Vec Ideal S128x64 .f32) (x2 : Vec Ideal S5000x1 .f32)
    (j : S5000x64.Idx) (i : S100000x64.Idx)
    (h0 : ∀ k : Fin 128, x0 (ix2 (j 0) k) = X (ix2 (i 0) k))
    (h1 : ∀ k : Fin 128, x1 (ix2 k (j 1)) = Wt (ix2 k (i 1)))
    (h2 : x2 (ix2 (j 0) (0 : Fin 1)) = nc (ix2 (i 0) (0 : Fin 1))) :
    k0_pay1 x0 x1 x2 j = project X Wt nc i := by
  refine ((congrArg (k0_pay1 x0 x1 x2) (eq_ix2 j)).trans (pay_apply x0 x1 x2 (j 0) (j 1))).trans ?_
  show _ = (∑ k : Fin 128, X (ix2 (i 0) k) * Wt (ix2 k (i 1))) * nc (ix2 (i 0) (0 : Fin 1))
  rw [h2]
  exact congrArg (· * nc (ix2 (i 0) (0 : Fin 1))) (Finset.sum_congr rfl fun k _ => by rw [h0 k, h1 k])

/-- The printed index maps over the grid: the row-blocked windows sit at block `t`, the weights at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `project` of the arrays as the region finds them. -/
theorem flushed_eq (c : Dev nD) (t : Fin cfg0.N) :
    (dat0 V c).flushed 3 t = ((cfg0.win 3).blk t).view.read (Elt Ideal)
      (project (V c main_arg0) (V c main_arg1) (V c main_v13)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x64) hz, View.ld_unit_zero (S := S5000x1) hz]
  obtain ⟨e00, e01, e10, e11, e20, e21, e30, e31⟩ := idx_facts t
  funext j
  show k0_pay1 (iblk0 V c 0 t) (iblk0 V c 1 t) (iblk0 V c 2 t) (j : S5000x64.Idx)
    = project (V c main_arg0) (V c main_arg1) (V c main_v13) (((cfg0.win 3).blk t).view.emb j)
  refine block_eq (V c main_arg0) (V c main_arg1) (V c main_v13) (iblk0 V c 0 t) (iblk0 V c 1 t) (iblk0 V c 2 t) j
    (((cfg0.win 3).blk t).view.emb j) (fun k => ?_) (fun k => ?_) ?_
  · show V c main_arg0 (((cfg0.win 0).blk t).view.emb (ix2 (j 0) k)) = V c main_arg0 _
    refine congrArg (V c main_arg0) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · show V c main_arg1 (((cfg0.win 1).blk t).view.emb (ix2 k (j 1))) = V c main_arg1 _
    refine congrArg (V c main_arg1) (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_3.index t (1 : Fin 2) * 64 + 1 * (j 1).val; omega
  · show V c main_v13 (((cfg0.win 2).blk t).view.emb (ix2 (j 0) (0 : Fin 1))) = V c main_v13 _
    refine congrArg (V c main_v13) (funext fun a => Fin.ext ?_)
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 1 + 1 * 0 = 0; omega

/-- An index of the result array is in point `t`'s block iff each coordinate is in the block's range on its axis. -/
theorem mem_blk (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v18).slice (win0_3.rect t)).set ↔ _
  rw [View.set_slice_whole, Rect.mem_set_unit]
  exact Iff.rfl

/-- THE RESULT ARRAY after the region: row `r` lies in the block of point `r / 5000`, so the 20 blocks cover the array and it
    holds `project` of the arrays the region found. -/
theorem final (c : Dev nD) :
    (dat0 V c).arrAt 3 cfg0.N = project (V c main_arg0) (V c main_arg1) (V c main_v13) :=
  (dat0 V c).arrAt_eq_of_cover 3 (project (V c main_arg0) (V c main_arg1) (V c main_v13))
    (fun t _ => flushed_eq V c t) fun i => by
      have hN : cfg0.N = 20 := N_0
      have hi0 : ((i : S100000x64.Idx) 0).val < 100000 := ((i : S100000x64.Idx) 0).isLt
      have hi1 : ((i : S100000x64.Idx) 1).val < 64 := ((i : S100000x64.Idx) 1).isLt
      have ht : ((i : S100000x64.Idx) 0).val / 5000 < cfg0.N := by rw [hN]; omega
      obtain ⟨_, _, _, _, _, _, e30, e31⟩ := idx_facts ⟨((i : S100000x64.Idx) 0).val / 5000, ht⟩
      refine ⟨⟨((i : S100000x64.Idx) 0).val / 5000, ht⟩, flush0_3 _, (mem_blk _ i).mpr fun a => ?_⟩
      match a with
      | ⟨0, _⟩ =>
        show win0_3.index _ (0 : Fin 2) * 5000 ≤ ((i : S100000x64.Idx) 0).val
          ∧ ((i : S100000x64.Idx) 0).val < win0_3.index _ (0 : Fin 2) * 5000 + 5000
        rw [e30]; dsimp only; omega
      | ⟨1, _⟩ =>
        show win0_3.index _ (1 : Fin 2) * 64 ≤ ((i : S100000x64.Idx) 1).val
          ∧ ((i : S100000x64.Idx) 1).val < win0_3.index _ (1 : Fin 2) * 64 + 64
        rw [e31]; omega

end Cert.KernelIdeal.Reg0

end
-- ==== Proof.Region1.lean ====
/-
  Pallas_call 1 as one function of the arrays it finds.

  Its grid has 20 points; point `t` reads rows `5000 t … 5000 t + 4999` of the aggregated features and of the two scale
  columns, the whole bias row and weight matrix, and writes the same rows of the result. The body finishes the previous
  layer on the row block (scale each row, add the bias, take the maximum with zero), multiplies by the weights (the change of
  format before the product is the identity on extended reals) and scales each row by its node's entry of the second column.
  So row `5000 t + p` of the result is `project (relu (finish …))` of the whole arrays at that row, and the 20 blocks tile the
  result array.
-/
import proofs.«174319_j5128190951839_1_alg».proof.Proof.KernelIdealFrameP
import proofs.«174319_j5128190951839_1_alg».proof.Proof.LibGraphConvLayer
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Reg1

open Cert.KernelIdeal Cert.KernelIdeal.Gen Cert.KernelIdeal.GenP Cert.Layer Cert.Lib

variable (V : (c : Dev nD) → (b : Ref sig .tc) → Buf (Elt Ideal) ((c : Thread nD τ).loc b))

theorem hz : (![0, 0] : Fin 2 → Nat) = fun _ => 0 := funext fun a => by fin_cases a <;> rfl

/-- The body's stored value at `(p, q)`. -/
theorem pay_apply (x0 : Vec Ideal S5000x64 .f32) (x1 : Vec Ideal S5000x1 .f32) (x2 : Vec Ideal S1x64 .f32)
    (x3 : Vec Ideal S64x64 .f32) (x4 : Vec Ideal S5000x1 .f32) (p : Fin 5000) (q : Fin 64) :
    k1_pay1 x0 x1 x2 x3 x4 (ix2 p q)
      = (∑ k : Fin 64, max (x0 (ix2 p k) * x1 (ix2 p (0 : Fin 1)) + x2 (ix2 (0 : Fin 1) k)) (Ideal.ofBits .f32 0x00000000#32)
          * x3 (ix2 k q)) * x4 (ix2 p (0 : Fin 1)) := by
  unfold k1_pay1
  rw [mulf_apply, broadcastTo_a1_ab_apply]
  simp only [shapeCast_self]
  refine congrArg (· * x4 (ix2 p (0 : Fin 1))) ?_
  refine (matmul_plain_zero_apply dot_S5000x64_S64x64_S5000x64_1_0_0_1_n_n_wf none _ _ p q).trans ?_
  refine Finset.sum_congr rfl fun k _ => ?_
  rw [truncf_apply, truncf_apply, maximumf_apply, addf_apply, mulf_apply, broadcast_apply, broadcastTo_a1_ab_apply,
    broadcastTo_1b_ab_apply]
  rfl

/-- The stored value at a block index `j` is the layer step of whole arrays at an index `i`, once the loaded blocks are known to
    hold the arrays' entries the step reads at `i`: row `i 0` of the features and of the two scales, the bias row, column
    `i 1` of the weights. -/
theorem block_eq (A : FVec Ideal S100000x64 .f32) (d : FVec Ideal S100000x1 .f32) (b : FVec Ideal S1x64 .f32)
    (Wt : FVec Ideal S64x64 .f32) (s : FVec Ideal S100000x1 .f32)
    (x0 : Vec Ideal S5000x64 .f32) (x1 : Vec Ideal S5000x1 .f32) (x2 : Vec Ideal S1x64 .f32)
    (x3 : Vec Ideal S64x64 .f32) (x4 : Vec Ideal S5000x1 .f32) (j : S5000x64.Idx) (i : S100000x64.Idx)
    (h0 : ∀ k : Fin 64, x0 (ix2 (j 0) k) = A (ix2 (i 0) k))
    (h1 : x1 (ix2 (j 0) (0 : Fin 1)) = d (ix2 (i 0) (0 : Fin 1)))
    (h2 : ∀ k : Fin 64, x2 (ix2 (0 : Fin 1) k) = b (ix2 (0 : Fin 1) k))
    (h3 : ∀ k : Fin 64, x3 (ix2 k (j 1)) = Wt (ix2 k (i 1)))
    (h4 : x4 (ix2 (j 0) (0 : Fin 1)) = s (ix2 (i 0) (0 : Fin 1))) :
    k1_pay1 x0 x1 x2 x3 x4 j = project (relu (finish A d b)) Wt s i := by
  refine ((congrArg (k1_pay1 x0 x1 x2 x3 x4) (eq_ix2 j)).trans (pay_apply x0 x1 x2 x3 x4 (j 0) (j 1))).trans ?_
  show _ = (∑ k : Fin 64, max (A (ix2 (i 0) k) * d (ix2 (i 0) (0 : Fin 1)) + b (ix2 (0 : Fin 1) k)) (Ideal.ofBits .f32 0x00000000#32)
      * Wt (ix2 k (i 1))) * s (ix2 (i 0) (0 : Fin 1))
  rw [h4, h1]
  exact congrArg (· * s (ix2 (i 0) (0 : Fin 1))) (Finset.sum_congr rfl fun k _ => by rw [h0 k, h2 k, h3 k])

/-- The printed index maps over the grid: the row-blocked windows sit at block `t`, the bias and the weights at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the layer step of the arrays as the region finds them. -/
theorem flushed_eq (c : Dev nD) (t : Fin cfg1.N) :
    (dat1 V c).flushed 5 t = ((cfg1.win 5).blk t).view.read (Elt Ideal)
      (project (relu (finish (V c main_v28) (V c main_v14) (V c main_v15))) (V c main_arg3) (V c main_v13)) := by
  show (cfg1.win 5).cut (grid1.coords t) ((dat1 V c).after 5 t) = _
  rw [after1_5]
  unfold out1_5
  rw [View.canon_unit_zero hz]
  simp only [View.ld_unit_zero (S := S5000x64) hz, View.ld_unit_zero (S := S5000x1) hz, View.ld_unit_zero (S := S1x64) hz,
    View.ld_unit_zero (S := S64x64) hz]
  obtain ⟨e00, e01, e10, e11, e20, e21, e30, e31, e40, e41, e50, e51⟩ := idx_facts t
  funext j
  show k1_pay1 (iblk1 V c 0 t) (iblk1 V c 1 t) (iblk1 V c 2 t) (iblk1 V c 3 t) (iblk1 V c 4 t) (j : S5000x64.Idx)
    = project (relu (finish (V c main_v28) (V c main_v14) (V c main_v15))) (V c main_arg3) (V c main_v13)
        (((cfg1.win 5).blk t).view.emb j)
  refine block_eq (V c main_v28) (V c main_v14) (V c main_v15) (V c main_arg3) (V c main_v13)
    (iblk1 V c 0 t) (iblk1 V c 1 t) (iblk1 V c 2 t) (iblk1 V c 3 t) (iblk1 V c 4 t) j
    (((cfg1.win 5).blk t).view.emb j) (fun k => ?_) ?_ (fun k => ?_) (fun k => ?_) ?_
  · show V c main_v28 (((cfg1.win 0).blk t).view.emb (ix2 (j 0) k)) = V c main_v28 _
    refine congrArg (V c main_v28) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 64 + 1 * k.val = k.val; omega
  · show V c main_v14 (((cfg1.win 1).blk t).view.emb (ix2 (j 0) (0 : Fin 1))) = V c main_v14 _
    refine congrArg (V c main_v14) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 1 + 1 * 0 = 0; omega
  · show V c main_v15 (((cfg1.win 2).blk t).view.emb (ix2 (0 : Fin 1) k)) = V c main_v15 _
    refine congrArg (V c main_v15) (funext fun a => Fin.ext ?_)
    match a with
    | ⟨0, _⟩ => show win1_2.index t (0 : Fin 2) * 1 + 1 * 0 = 0; omega
    | ⟨1, _⟩ => show win1_2.index t (1 : Fin 2) * 64 + 1 * k.val = k.val; omega
  · show V c main_arg3 (((cfg1.win 3).blk t).view.emb (ix2 k (j 1))) = V c main_arg3 _
    refine congrArg (V c main_arg3) (funext fun a => Fin.ext ?_)
    match a with
    | ⟨0, _⟩ => show win1_3.index t (0 : Fin 2) * 64 + 1 * k.val = k.val; omega
    | ⟨1, _⟩ => show win1_3.index t (1 : Fin 2) * 64 + 1 * (j 1).val = win1_5.index t (1 : Fin 2) * 64 + 1 * (j 1).val; omega
  · show V c main_v13 (((cfg1.win 4).blk t).view.emb (ix2 (j 0) (0 : Fin 1))) = V c main_v13 _
    refine congrArg (V c main_v13) (funext fun a => Fin.ext ?_)
    match a with
    | ⟨0, _⟩ => show win1_4.index t (0 : Fin 2) * 5000 + 1 * (j 0).val = win1_5.index t (0 : Fin 2) * 5000 + 1 * (j 0).val; omega
    | ⟨1, _⟩ => show win1_4.index t (1 : Fin 2) * 1 + 1 * 0 = 0; omega

/-- An index of the result array is in point `t`'s block iff each coordinate is in the block's range on its axis. -/
theorem mem_blk (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v29).slice (win1_5.rect t)).set ↔ _
  rw [View.set_slice_whole, Rect.mem_set_unit]
  exact Iff.rfl

/-- THE RESULT ARRAY after the region: row `r` lies in the block of point `r / 5000`, so the 20 blocks cover the array and it
    holds the layer step of the arrays the region found. -/
theorem final (c : Dev nD) :
    (dat1 V c).arrAt 5 cfg1.N
      = project (relu (finish (V c main_v28) (V c main_v14) (V c main_v15))) (V c main_arg3) (V c main_v13) :=
  (dat1 V c).arrAt_eq_of_cover 5
    (project (relu (finish (V c main_v28) (V c main_v14) (V c main_v15))) (V c main_arg3) (V c main_v13))
    (fun t _ => flushed_eq V c t) fun i => by
      have hN : cfg1.N = 20 := N_1
      have hi0 : ((i : S100000x64.Idx) 0).val < 100000 := ((i : S100000x64.Idx) 0).isLt
      have hi1 : ((i : S100000x64.Idx) 1).val < 64 := ((i : S100000x64.Idx) 1).isLt
      have ht : ((i : S100000x64.Idx) 0).val / 5000 < cfg1.N := by rw [hN]; omega
      obtain ⟨_, _, _, _, _, _, _, _, _, _, e50, e51⟩ := idx_facts ⟨((i : S100000x64.Idx) 0).val / 5000, ht⟩
      refine ⟨⟨((i : S100000x64.Idx) 0).val / 5000, ht⟩, flush1_5 _, (mem_blk _ i).mpr fun a => ?_⟩
      match a with
      | ⟨0, _⟩ =>
        show win1_5.index _ (0 : Fin 2) * 5000 ≤ ((i : S100000x64.Idx) 0).val
          ∧ ((i : S100000x64.Idx) 0).val < win1_5.index _ (0 : Fin 2) * 5000 + 5000
        rw [e50]; dsimp only; omega
      | ⟨1, _⟩ =>
        show win1_5.index _ (1 : Fin 2) * 64 ≤ ((i : S100000x64.Idx) 1).val
          ∧ ((i : S100000x64.Idx) 1).val < win1_5.index _ (1 : Fin 2) * 64 + 64
        rw [e51]; omega

end Cert.KernelIdeal.Reg1

end
-- ==== Proof.Region2.lean ====
/-
  Pallas_call 2 as one function of the arrays it finds.

  Its grid has 20 points; point `t` reads rows `5000 t … 5000 t + 4999` of the aggregated features and of the two scale
  columns, the whole bias row and weight matrix, and writes the same rows of the result. The body finishes the previous
  layer on the row block (scale each row, add the bias, take the maximum with zero), multiplies by the weights (the change of
  format before the product is the identity on extended reals) and scales each row by its node's entry of the second column.
  So row `5000 t + p` of the result is `project (relu (finish …))` of the whole arrays at that row, and the 20 blocks tile the
  result array.
-/
import proofs.«174319_j5128190951839_1_alg».proof.Proof.KernelIdealFrameP
import proofs.«174319_j5128190951839_1_alg».proof.Proof.LibGraphConvLayer
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Reg2

open Cert.KernelIdeal Cert.KernelIdeal.Gen Cert.KernelIdeal.GenP Cert.Layer Cert.Lib

variable (V : (c : Dev nD) → (b : Ref sig .tc) → Buf (Elt Ideal) ((c : Thread nD τ).loc b))

theorem hz : (![0, 0] : Fin 2 → Nat) = fun _ => 0 := funext fun a => by fin_cases a <;> rfl

/-- The body's stored value at `(p, q)`. -/
theorem pay_apply (x0 : Vec Ideal S5000x64 .f32) (x1 : Vec Ideal S5000x1 .f32) (x2 : Vec Ideal S1x64 .f32)
    (x3 : Vec Ideal S64x40 .f32) (x4 : Vec Ideal S5000x1 .f32) (p : Fin 5000) (q : Fin 40) :
    k2_pay1 x0 x1 x2 x3 x4 (ix2 p q)
      = (∑ k : Fin 64, max (x0 (ix2 p k) * x1 (ix2 p (0 : Fin 1)) + x2 (ix2 (0 : Fin 1) k)) (Ideal.ofBits .f32 0x00000000#32)
          * x3 (ix2 k q)) * x4 (ix2 p (0 : Fin 1)) := by
  unfold k2_pay1
  rw [mulf_apply, broadcastTo_a1_ab_apply]
  simp only [shapeCast_self]
  refine congrArg (· * x4 (ix2 p (0 : Fin 1))) ?_
  refine (matmul_plain_zero_apply dot_S5000x64_S64x40_S5000x40_1_0_0_1_n_n_wf none _ _ p q).trans ?_
  refine Finset.sum_congr rfl fun k _ => ?_
  rw [truncf_apply, truncf_apply, maximumf_apply, addf_apply, mulf_apply, broadcast_apply, broadcastTo_a1_ab_apply,
    broadcastTo_1b_ab_apply]
  rfl

/-- The stored value at a block index `j` is the layer step of whole arrays at an index `i`, once the loaded blocks are known to
    hold the arrays' entries the step reads at `i`: row `i 0` of the features and of the two scales, the bias row, column
    `i 1` of the weights. -/
theorem block_eq (A : FVec Ideal S100000x64 .f32) (d : FVec Ideal S100000x1 .f32) (b : FVec Ideal S1x64 .f32)
    (Wt : FVec Ideal S64x40 .f32) (s : FVec Ideal S100000x1 .f32)
    (x0 : Vec Ideal S5000x64 .f32) (x1 : Vec Ideal S5000x1 .f32) (x2 : Vec Ideal S1x64 .f32)
    (x3 : Vec Ideal S64x40 .f32) (x4 : Vec Ideal S5000x1 .f32) (j : S5000x40.Idx) (i : S100000x40.Idx)
    (h0 : ∀ k : Fin 64, x0 (ix2 (j 0) k) = A (ix2 (i 0) k))
    (h1 : x1 (ix2 (j 0) (0 : Fin 1)) = d (ix2 (i 0) (0 : Fin 1)))
    (h2 : ∀ k : Fin 64, x2 (ix2 (0 : Fin 1) k) = b (ix2 (0 : Fin 1) k))
    (h3 : ∀ k : Fin 64, x3 (ix2 k (j 1)) = Wt (ix2 k (i 1)))
    (h4 : x4 (ix2 (j 0) (0 : Fin 1)) = s (ix2 (i 0) (0 : Fin 1))) :
    k2_pay1 x0 x1 x2 x3 x4 j = project (relu (finish A d b)) Wt s i := by
  refine ((congrArg (k2_pay1 x0 x1 x2 x3 x4) (eq_ix2 j)).trans (pay_apply x0 x1 x2 x3 x4 (j 0) (j 1))).trans ?_
  show _ = (∑ k : Fin 64, max (A (ix2 (i 0) k) * d (ix2 (i 0) (0 : Fin 1)) + b (ix2 (0 : Fin 1) k)) (Ideal.ofBits .f32 0x00000000#32)
      * Wt (ix2 k (i 1))) * s (ix2 (i 0) (0 : Fin 1))
  rw [h4, h1]
  exact congrArg (· * s (ix2 (i 0) (0 : Fin 1))) (Finset.sum_congr rfl fun k _ => by rw [h0 k, h2 k, h3 k])

/-- The printed index maps over the grid: the row-blocked windows sit at block `t`, the bias and the weights at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- What point `t` writes back is block `t` of the layer step of the arrays as the region finds them. -/
theorem flushed_eq (c : Dev nD) (t : Fin cfg2.N) :
    (dat2 V c).flushed 5 t = ((cfg2.win 5).blk t).view.read (Elt Ideal)
      (project (relu (finish (V c main_v39) (V c main_v14) (V c main_v16))) (V c main_arg5) (V c main_v13)) := by
  show (cfg2.win 5).cut (grid2.coords t) ((dat2 V c).after 5 t) = _
  rw [after2_5]
  unfold out2_5
  rw [View.canon_unit_zero hz]
  simp only [View.ld_unit_zero (S := S5000x64) hz, View.ld_unit_zero (S := S5000x1) hz, View.ld_unit_zero (S := S1x64) hz,
    View.ld_unit_zero (S := S64x40) hz]
  obtain ⟨e00, e01, e10, e11, e20, e21, e30, e31, e40, e41, e50, e51⟩ := idx_facts t
  funext j
  show k2_pay1 (iblk2 V c 0 t) (iblk2 V c 1 t) (iblk2 V c 2 t) (iblk2 V c 3 t) (iblk2 V c 4 t) (j : S5000x40.Idx)
    = project (relu (finish (V c main_v39) (V c main_v14) (V c main_v16))) (V c main_arg5) (V c main_v13)
        (((cfg2.win 5).blk t).view.emb j)
  refine block_eq (V c main_v39) (V c main_v14) (V c main_v16) (V c main_arg5) (V c main_v13)
    (iblk2 V c 0 t) (iblk2 V c 1 t) (iblk2 V c 2 t) (iblk2 V c 3 t) (iblk2 V c 4 t) j
    (((cfg2.win 5).blk t).view.emb j) (fun k => ?_) ?_ (fun k => ?_) (fun k => ?_) ?_
  · show V c main_v39 (((cfg2.win 0).blk t).view.emb (ix2 (j 0) k)) = V c main_v39 _
    refine congrArg (V c main_v39) (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 64 + 1 * k.val = k.val; omega
  · show V c main_v14 (((cfg2.win 1).blk t).view.emb (ix2 (j 0) (0 : Fin 1))) = V c main_v14 _
    refine congrArg (V c main_v14) (funext fun a => Fin.ext ?_)
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 1 + 1 * 0 = 0; omega
  · show V c main_v16 (((cfg2.win 2).blk t).view.emb (ix2 (0 : Fin 1) k)) = V c main_v16 _
    refine congrArg (V c main_v16) (funext fun a => Fin.ext ?_)
    match a with
    | ⟨0, _⟩ => show win2_2.index t (0 : Fin 2) * 1 + 1 * 0 = 0; omega
    | ⟨1, _⟩ => show win2_2.index t (1 : Fin 2) * 64 + 1 * k.val = k.val; omega
  · show V c main_arg5 (((cfg2.win 3).blk t).view.emb (ix2 k (j 1))) = V c main_arg5 _
    refine congrArg (V c main_arg5) (funext fun a => Fin.ext ?_)
    match a with
    | ⟨0, _⟩ => show win2_3.index t (0 : Fin 2) * 64 + 1 * k.val = k.val; omega
    | ⟨1, _⟩ => show win2_3.index t (1 : Fin 2) * 40 + 1 * (j 1).val = win2_5.index t (1 : Fin 2) * 40 + 1 * (j 1).val; omega
  · show V c main_v13 (((cfg2.win 4).blk t).view.emb (ix2 (j 0) (0 : Fin 1))) = V c main_v13 _
    refine congrArg (V c main_v13) (funext fun a => Fin.ext ?_)
    match a with
    | ⟨0, _⟩ => show win2_4.index t (0 : Fin 2) * 5000 + 1 * (j 0).val = win2_5.index t (0 : Fin 2) * 5000 + 1 * (j 0).val; omega
    | ⟨1, _⟩ => show win2_4.index t (1 : Fin 2) * 1 + 1 * 0 = 0; omega

/-- An index of the result array is in point `t`'s block iff each coordinate is in the block's range on its axis. -/
theorem mem_blk (t : Fin cfg2.N) (i : S100000x40.Idx) :
    i ∈ ((cfg2.win 5).blk t).view.set ↔ ∀ a : Fin 2, win2_5.index t a * S5000x40.size a ≤ (i a).val
      ∧ (i a).val < win2_5.index t a * S5000x40.size a + S5000x40.size a := by
  show i ∈ ((View.whole main_v40).slice (win2_5.rect t)).set ↔ _
  rw [View.set_slice_whole, Rect.mem_set_unit]
  exact Iff.rfl

/-- THE RESULT ARRAY after the region: row `r` lies in the block of point `r / 5000`, so the 20 blocks cover the array and it
    holds the layer step of the arrays the region found. -/
theorem final (c : Dev nD) :
    (dat2 V c).arrAt 5 cfg2.N
      = project (relu (finish (V c main_v39) (V c main_v14) (V c main_v16))) (V c main_arg5) (V c main_v13) :=
  (dat2 V c).arrAt_eq_of_cover 5
    (project (relu (finish (V c main_v39) (V c main_v14) (V c main_v16))) (V c main_arg5) (V c main_v13))
    (fun t _ => flushed_eq V c t) fun i => by
      have hN : cfg2.N = 20 := N_2
      have hi0 : ((i : S100000x40.Idx) 0).val < 100000 := ((i : S100000x40.Idx) 0).isLt
      have hi1 : ((i : S100000x40.Idx) 1).val < 40 := ((i : S100000x40.Idx) 1).isLt
      have ht : ((i : S100000x40.Idx) 0).val / 5000 < cfg2.N := by rw [hN]; omega
      obtain ⟨_, _, _, _, _, _, _, _, _, _, e50, e51⟩ := idx_facts ⟨((i : S100000x40.Idx) 0).val / 5000, ht⟩
      refine ⟨⟨((i : S100000x40.Idx) 0).val / 5000, ht⟩, flush2_5 _, (mem_blk _ i).mpr fun a => ?_⟩
      match a with
      | ⟨0, _⟩ =>
        show win2_5.index _ (0 : Fin 2) * 5000 ≤ ((i : S100000x40.Idx) 0).val
          ∧ ((i : S100000x40.Idx) 0).val < win2_5.index _ (0 : Fin 2) * 5000 + 5000
        rw [e50]; dsimp only; omega
      | ⟨1, _⟩ =>
        show win2_5.index _ (1 : Fin 2) * 40 ≤ ((i : S100000x40.Idx) 1).val
          ∧ ((i : S100000x40.Idx) 1).val < win2_5.index _ (1 : Fin 2) * 40 + 40
        rw [e51]; omega

end Cert.KernelIdeal.Reg2

end
-- ==== Proof.Region3.lean ====
/-
  The last pallas_call as one function of the arrays it finds.

  Its grid has 20 points; point `t` reads rows `5000 t … 5000 t + 4999` of the aggregated features and of the scale column and
  the whole bias row, and writes the same rows of the result: each row scaled by its node's entry, plus the bias. So row
  `5000 t + p` of the result is `finish` of the whole arrays at that row, and the 20 blocks tile the result array.
-/
import proofs.«174319_j5128190951839_1_alg».proof.Proof.KernelIdealFrameP
import proofs.«174319_j5128190951839_1_alg».proof.Proof.LibGraphConvLayer
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Reg3

open Cert.KernelIdeal Cert.KernelIdeal.Gen Cert.KernelIdeal.GenP Cert.Layer Cert.Lib

variable (V : (c : Dev nD) → (b : Ref sig .tc) → Buf (Elt Ideal) ((c : Thread nD τ).loc b))

theorem hz : (![0, 0] : Fin 2 → Nat) = fun _ => 0 := funext fun a => by fin_cases a <;> rfl

/-- The body's stored value at `(p, q)`. -/
theorem pay_apply (x0 : Vec Ideal S5000x40 .f32) (x1 : Vec Ideal S5000x1 .f32) (x2 : Vec Ideal S1x40 .f32)
    (p : Fin 5000) (q : Fin 40) :
    k3_pay1 x0 x1 x2 (ix2 p q) = x0 (ix2 p q) * x1 (ix2 p (0 : Fin 1)) + x2 (ix2 (0 : Fin 1) q) := by
  unfold k3_pay1
  rw [addf_apply, mulf_apply, broadcastTo_a1_ab_apply, broadcastTo_1b_ab_apply]
  simp only [shapeCast_self]

/-- The stored value at a block index `j` is `finish` of whole arrays at an index `i`, once the loaded blocks are known to
    hold the arrays' entries that `finish` reads at `i`. -/
theorem block_eq (A : FVec Ideal S100000x40 .f32) (d : FVec Ideal S100000x1 .f32) (b : FVec Ideal S1x40 .f32)
    (x0 : Vec Ideal S5000x40 .f32) (x1 : Vec Ideal S5000x1 .f32) (x2 : Vec Ideal S1x40 .f32)
    (j : S5000x40.Idx) (i : S100000x40.Idx)
    (h0 : x0 (ix2 (j 0) (j 1)) = A i)
    (h1 : x1 (ix2 (j 0) (0 : Fin 1)) = d (ix2 (i 0) (0 : Fin 1)))
    (h2 : x2 (ix2 (0 : Fin 1) (j 1)) = b (ix2 (0 : Fin 1) (i 1))) :
    k3_pay1 x0 x1 x2 j = finish A d b i := by
  refine ((congrArg (k3_pay1 x0 x1 x2) (eq_ix2 j)).trans (pay_apply x0 x1 x2 (j 0) (j 1))).trans ?_
  show _ = A i * d (ix2 (i 0) (0 : Fin 1)) + b (ix2 (0 : Fin 1) (i 1))
  rw [h0, h1, h2]

/-- The printed index maps over the grid: the row-blocked windows sit at block `t`, the bias at block 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is block `t` of `finish` of the arrays as the region finds them. -/
theorem flushed_eq (c : Dev nD) (t : Fin cfg3.N) :
    (dat3 V c).flushed 3 t = ((cfg3.win 3).blk t).view.read (Elt Ideal)
      (finish (V c main_v50) (V c main_v14) (V c main_v17)) := by
  show (cfg3.win 3).cut (grid3.coords t) ((dat3 V c).after 3 t) = _
  rw [after3_3]
  unfold out3_3
  rw [View.canon_unit_zero hz]
  simp only [View.ld_unit_zero (S := S5000x40) hz, View.ld_unit_zero (S := S5000x1) hz, View.ld_unit_zero (S := S1x40) hz]
  obtain ⟨e00, e01, e10, e11, e20, e21, e30, e31⟩ := idx_facts t
  funext j
  show k3_pay1 (iblk3 V c 0 t) (iblk3 V c 1 t) (iblk3 V c 2 t) (j : S5000x40.Idx)
    = finish (V c main_v50) (V c main_v14) (V c main_v17) (((cfg3.win 3).blk t).view.emb j)
  refine block_eq (V c main_v50) (V c main_v14) (V c main_v17) (iblk3 V c 0 t) (iblk3 V c 1 t) (iblk3 V c 2 t) j
    (((cfg3.win 3).blk t).view.emb j) ?_ ?_ ?_
  · show V c main_v50 (((cfg3.win 0).blk t).view.emb (ix2 (j 0) (j 1))) = V c main_v50 _
    refine congrArg (V c main_v50) (funext fun a => Fin.ext ?_)
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 40 + 1 * (j 1).val = win3_3.index t (1 : Fin 2) * 40 + 1 * (j 1).val; omega
  · show V c main_v14 (((cfg3.win 1).blk t).view.emb (ix2 (j 0) (0 : Fin 1))) = V c main_v14 _
    refine congrArg (V c main_v14) (funext fun a => Fin.ext ?_)
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 1 + 1 * 0 = 0; omega
  · show V c main_v17 (((cfg3.win 2).blk t).view.emb (ix2 (0 : Fin 1) (j 1))) = V c main_v17 _
    refine congrArg (V c main_v17) (funext fun a => Fin.ext ?_)
    match a with
    | ⟨0, _⟩ => show win3_2.index t (0 : Fin 2) * 1 + 1 * 0 = 0; omega
    | ⟨1, _⟩ => show win3_2.index t (1 : Fin 2) * 40 + 1 * (j 1).val = win3_3.index t (1 : Fin 2) * 40 + 1 * (j 1).val; omega

/-- An index of the result array is in point `t`'s block iff each coordinate is in the block's range on its axis. -/
theorem mem_blk (t : Fin cfg3.N) (i : S100000x40.Idx) :
    i ∈ ((cfg3.win 3).blk t).view.set ↔ ∀ a : Fin 2, win3_3.index t a * S5000x40.size a ≤ (i a).val
      ∧ (i a).val < win3_3.index t a * S5000x40.size a + S5000x40.size a := by
  show i ∈ ((View.whole main_v51).slice (win3_3.rect t)).set ↔ _
  rw [View.set_slice_whole, Rect.mem_set_unit]
  exact Iff.rfl

/-- THE RESULT ARRAY after the region: row `r` lies in the block of point `r / 5000`, so the 20 blocks cover the array and it
    holds `finish` of the arrays the region found. -/
theorem final (c : Dev nD) :
    (dat3 V c).arrAt 3 cfg3.N = finish (V c main_v50) (V c main_v14) (V c main_v17) :=
  (dat3 V c).arrAt_eq_of_cover 3 (finish (V c main_v50) (V c main_v14) (V c main_v17))
    (fun t _ => flushed_eq V c t) fun i => by
      have hN : cfg3.N = 20 := N_3
      have hi0 : ((i : S100000x40.Idx) 0).val < 100000 := ((i : S100000x40.Idx) 0).isLt
      have hi1 : ((i : S100000x40.Idx) 1).val < 40 := ((i : S100000x40.Idx) 1).isLt
      have ht : ((i : S100000x40.Idx) 0).val / 5000 < cfg3.N := by rw [hN]; omega
      obtain ⟨_, _, _, _, _, _, e30, e31⟩ := idx_facts ⟨((i : S100000x40.Idx) 0).val / 5000, ht⟩
      refine ⟨⟨((i : S100000x40.Idx) 0).val / 5000, ht⟩, flush3_3 _, (mem_blk _ i).mpr fun a => ?_⟩
      match a with
      | ⟨0, _⟩ =>
        show win3_3.index _ (0 : Fin 2) * 5000 ≤ ((i : S100000x40.Idx) 0).val
          ∧ ((i : S100000x40.Idx) 0).val < win3_3.index _ (0 : Fin 2) * 5000 + 5000
        rw [e30]; dsimp only; omega
      | ⟨1, _⟩ =>
        show win3_3.index _ (1 : Fin 2) * 40 ≤ ((i : S100000x40.Idx) 1).val
          ∧ ((i : S100000x40.Idx) 1).val < win3_3.index _ (1 : Fin 2) * 40 + 40
        rw [e31]; omega

end Cert.KernelIdeal.Reg3

end
-- ==== Proof.Network.lean ====
/-
  The three-layer graph convolution as one function of the argument arrays, and the reference's result as that function.

  `degree ix` counts, per node, the edges whose end `ix` names it (ones summed at the scattered positions); `norm ix` is
  `1 / sqrt (max (degree ix) 1)`; `rows ix` is the edge ends wrapped (a negative entry counts from the end) and laid as a
  column of row numbers; `agg x s d` gathers the rows of `x` named by the sources and sums them into the rows named by the
  destinations. None of these is opened: both programs apply the same host operations, so they are carried as functions.
  A layer is `project` (features times weights, rows scaled by the source norm), `agg`, `finish` (rows scaled by the
  destination norm, plus the bias) and, but for the last layer, `relu` (LibGraphConvLayer.lean). The reference spells `project`,
  `finish` and `relu` with broadcasts; read entry by entry they are those functions at the column `reshape (norm …)` and the
  row `reshape b` (LibGraphConvLayer.lean's `host_…` lemmas), so its result is `network` of its arguments.
-/
import proofs.«174319_j5128190951839_1_alg».proof.Proof.Gen.ReferenceIdeal.Run
import proofs.«174319_j5128190951839_1_alg».proof.Proof.LibGraphConvLayer

set_option maxRecDepth 16384

noncomputable section

open Idealize.ShloMosaic Idealize.ShloMosaic.TcCoe Idealize.SL.Sem

namespace Cert.Network

open Cert.ReferenceIdeal Cert.ReferenceIdeal.Facts₀ Cert.Layer

/-- A vector of edge ends. -/
abbrev Ends := (⟨S1600000, .i32⟩ : BufTy).Contents (Elt Ideal)

/-- How many edges name each node at the end `ix`. -/
def degree (ix : Ends) : FVec Ideal S100000 .f32 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 ix)
    (broadcastInDim S1600000 ![] bcast_S_S1600000 (constant (F := Ideal) S_ .f32 0x3F800000#32))

/-- The inverse square root of the degree, the degree taken at least one. -/
def norm (ix : Ends) : FVec Ideal S100000 .f32 :=
  Host.rsqrt (maximumf (degree ix) (broadcastInDim S100000 ![] bcast_S_S100000 (constant (F := Ideal) S_ .f32 0x3F800000#32)))

/-- The edge ends as a column of row numbers, a negative entry counted from the end. -/
def rows (ix : Ends) : (⟨S1600000x1, .i32⟩ : BufTy).Contents (Elt Ideal) :=
  broadcastInDim S1600000x1 ![0] bcast_S1600000_S1600000x1_0
    (select (cmpi .slt ix (broadcastInDim S1600000 ![] bcast_S_S1600000 (constantI S_ 32 0#32)))
      (addi ix (broadcastInDim S1600000 ![] bcast_S_S1600000 (constantI S_ 32 100000#32))) ix)

/-- Rows of `x` gathered at the sources and summed into the destinations, 64 features wide. -/
def agg64 (x : FVec Ideal S100000x64 .f32) (s d : Ends) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d)
    (Host.gather gather_S100000x64_S1600000x1_S1600000x64_1_0_n_n_0_1_164 x (rows s))

/-- The same, 40 features wide. -/
def agg40 (x : FVec Ideal S100000x40 .f32) (s d : Ends) : FVec Ideal S100000x40 .f32 :=
  Host.scatterAdd scatter_S100000x40_S1600000x1_S1600000x40_1_0_0_1
    (broadcastInDim S100000x40 ![] bcast_S_S100000x40 (constant (F := Ideal) S_ .f32 0x00000000#32))
    (broadcastInDim S1600000x1 ![0] bcast_S1600000_S1600000x1_0 d)
    (Host.gather gather_S100000x40_S1600000x1_S1600000x40_1_0_n_n_0_1_140 x (rows s))

theorem hcol : S100000.ShapeCasts S100000x1 := by decide
theorem hrow64 : S64.ShapeCasts S1x64 := by decide
theorem hrow40 : S40.ShapeCasts S1x40 := by decide

/-- A node vector as a column. -/
def col (v : FVec Ideal S100000 .f32) : FVec Ideal S100000x1 .f32 := shapeCast S100000x1 v hcol
/-- A bias vector as a row. -/
def row64 (b : FVec Ideal S64 .f32) : FVec Ideal S1x64 .f32 := shapeCast S1x64 b hrow64
def row40 (b : FVec Ideal S40 .f32) : FVec Ideal S1x40 .f32 := shapeCast S1x40 b hrow40

/-- The three layers. -/
def network (h : FVec Ideal S100000x128 .f32) (W0 : FVec Ideal S128x64 .f32) (b0 : FVec Ideal S64 .f32)
    (W1 : FVec Ideal S64x64 .f32) (b1 : FVec Ideal S64 .f32) (W2 : FVec Ideal S64x40 .f32) (b2 : FVec Ideal S40 .f32)
    (src dst : Ends) : FVec Ideal S100000x40 .f32 :=
  finish (agg40 (project (relu (finish (agg64 (project (relu (finish (agg64 (project h W0 (col (norm src))) src dst)
    (col (norm dst)) (row64 b0))) W1 (col (norm src))) src dst) (col (norm dst)) (row64 b1))) W2 (col (norm src))) src dst)
    (col (norm dst)) (row40 b2)

/-! ## The reference's spelling of the layer steps, at its own shapes -/

theorem project0_eq (X : FVec Ideal S100000x128 .f32) (W : FVec Ideal S128x64 .f32) (v : FVec Ideal S100000 .f32) :
    project X W (col v) = mulf (Host.dotGeneral dot_S100000x128_S128x64_S100000x64_1_0_0_1_n_n none X W)
      (broadcastInDim S100000x64 ![0, 1] bcast_S100000x1_S100000x64_0_1 (broadcastInDim S100000x1 ![0] bcast_S100000_S100000x1_0 v)) :=
  (host_project dot_S100000x128_S128x64_S100000x64_1_0_0_1_n_n_wf bcast_S100000_S100000x1_0 bcast_S100000x1_S100000x64_0_1 hcol X W v).symm

theorem project1_eq (X : FVec Ideal S100000x64 .f32) (W : FVec Ideal S64x64 .f32) (v : FVec Ideal S100000 .f32) :
    project X W (col v) = mulf (Host.dotGeneral dot_S100000x64_S64x64_S100000x64_1_0_0_1_n_n none X W)
      (broadcastInDim S100000x64 ![0, 1] bcast_S100000x1_S100000x64_0_1 (broadcastInDim S100000x1 ![0] bcast_S100000_S100000x1_0 v)) :=
  (host_project dot_S100000x64_S64x64_S100000x64_1_0_0_1_n_n_wf bcast_S100000_S100000x1_0 bcast_S100000x1_S100000x64_0_1 hcol X W v).symm

theorem project2_eq (X : FVec Ideal S100000x64 .f32) (W : FVec Ideal S64x40 .f32) (v : FVec Ideal S100000 .f32) :
    project X W (col v) = mulf (Host.dotGeneral dot_S100000x64_S64x40_S100000x40_1_0_0_1_n_n none X W)
      (broadcastInDim S100000x40 ![0, 1] bcast_S100000x1_S100000x40_0_1 (broadcastInDim S100000x1 ![0] bcast_S100000_S100000x1_0 v)) :=
  (host_project dot_S100000x64_S64x40_S100000x40_1_0_0_1_n_n_wf bcast_S100000_S100000x1_0 bcast_S100000x1_S100000x40_0_1 hcol X W v).symm

theorem finish64_eq (A : FVec Ideal S100000x64 .f32) (v : FVec Ideal S100000 .f32) (b : FVec Ideal S64 .f32) :
    finish A (col v) (row64 b) = addf (mulf A (broadcastInDim S100000x64 ![0, 1] bcast_S100000x1_S100000x64_0_1
        (broadcastInDim S100000x1 ![0] bcast_S100000_S100000x1_0 v)))
      (broadcastInDim S100000x64 ![0, 1] bcast_S1x64_S100000x64_0_1 (broadcastInDim S1x64 ![1] bcast_S64_S1x64_1 b)) :=
  (host_finish bcast_S100000_S100000x1_0 bcast_S100000x1_S100000x64_0_1 bcast_S64_S1x64_1 bcast_S1x64_S100000x64_0_1 hcol hrow64 A v b).symm

theorem finish40_eq (A : FVec Ideal S100000x40 .f32) (v : FVec Ideal S100000 .f32) (b : FVec Ideal S40 .f32) :
    finish A (col v) (row40 b) = addf (mulf A (broadcastInDim S100000x40 ![0, 1] bcast_S100000x1_S100000x40_0_1
        (broadcastInDim S100000x1 ![0] bcast_S100000_S100000x1_0 v)))
      (broadcastInDim S100000x40 ![0, 1] bcast_S1x40_S100000x40_0_1 (broadcastInDim S1x40 ![1] bcast_S40_S1x40_1 b)) :=
  (host_finish bcast_S100000_S100000x1_0 bcast_S100000x1_S100000x40_0_1 bcast_S40_S1x40_1 bcast_S1x40_S100000x40_0_1 hcol hrow40 A v b).symm

theorem relu64_eq (Z : FVec Ideal S100000x64 .f32) :
    relu Z = maximumf Z (broadcastInDim S100000x64 ![] bcast_S_S100000x64 (constant (F := Ideal) S_ .f32 0x00000000#32)) :=
  (host_relu bcast_S_S100000x64 Z).symm

/-! ## The reference's result -/

/-- The reference run's result term is `network` of the arguments. -/
theorem result_eq (m : (ℓ : Loc nD τ sig) → Buf (Elt Ideal) ℓ) (c : Dev nD) :
    Cert.ReferenceIdeal.Value.res_main_v74 (F := Ideal) m c
      = network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  unfold network
  rw [finish40_eq, project2_eq, relu64_eq, finish64_eq, project1_eq, relu64_eq, finish64_eq, project0_eq]
  unfold Cert.ReferenceIdeal.Value.res_main_v74 agg40 agg64 norm degree rows
  rfl

end Cert.Network

end
-- ==== Proof.Chain.lean ====
/-
  The idealized kernel's result, stage by stage.

  The program's buffers at each boundary between a host stretch and a pallas_call are a fold from the launch memory (`W1` …
  `W8`). A host stretch changes only the buffers its operations write, and what it writes is those operations applied to the
  buffers before it; a pallas_call changes only its result array, which ends at the region's function of the arrays it found
  (Region0 … Region3). So the nine buffers the later stages read — the weights and edge ends, the two norm columns, the three
  bias rows — hold at every boundary what they held after the first stretch, and the chain of results is: the projected
  features, their aggregate, the next layer's projected features, … , the last layer finished: `network` of the arguments.
  The host's gathers and scatter-adds are carried as the functions `agg64`, `agg40`, `norm`: never opened.
-/
import proofs.«174319_j5128190951839_1_alg».proof.Proof.KernelIdealFrameP
import proofs.«174319_j5128190951839_1_alg».proof.Proof.LibGraphConvLayer
import proofs.«174319_j5128190951839_1_alg».proof.Proof.Region0
import proofs.«174319_j5128190951839_1_alg».proof.Proof.Region1
import proofs.«174319_j5128190951839_1_alg».proof.Proof.Region2
import proofs.«174319_j5128190951839_1_alg».proof.Proof.Region3
import proofs.«174319_j5128190951839_1_alg».proof.Proof.Network
import Idealize.ShloMosaic.Lib.StableHlo.Run
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Chain

open Cert.KernelIdeal Cert.KernelIdeal.Gen Cert.KernelIdeal.GenP Cert.Layer Cert.Network

variable (m : (ℓ : Loc nD τ sig) → Buf (Elt Ideal) ℓ) (ρ : Dev nD → PrngReg) (c : Dev nD)

/-! ## After the first host stretch -/

theorem W1_arg0 : W1 m ρ c (Proc.devRef .tc main_arg0) = m ((c.tc : Thread nD τ).loc main_arg0) := by
  show StableHlo.after hostOps0 (W0 m ρ c) (Proc.devRef .tc main_arg0) = _
  after_results
  all_goals rfl
theorem W1_arg1 : W1 m ρ c (Proc.devRef .tc main_arg1) = m ((c.tc : Thread nD τ).loc main_arg1) := by
  show StableHlo.after hostOps0 (W0 m ρ c) (Proc.devRef .tc main_arg1) = _
  after_results
  all_goals rfl
theorem W1_arg3 : W1 m ρ c (Proc.devRef .tc main_arg3) = m ((c.tc : Thread nD τ).loc main_arg3) := by
  show StableHlo.after hostOps0 (W0 m ρ c) (Proc.devRef .tc main_arg3) = _
  after_results
  all_goals rfl
theorem W1_arg5 : W1 m ρ c (Proc.devRef .tc main_arg5) = m ((c.tc : Thread nD τ).loc main_arg5) := by
  show StableHlo.after hostOps0 (W0 m ρ c) (Proc.devRef .tc main_arg5) = _
  after_results
  all_goals rfl
theorem W1_arg7 : W1 m ρ c (Proc.devRef .tc main_arg7) = m ((c.tc : Thread nD τ).loc main_arg7) := by
  show StableHlo.after hostOps0 (W0 m ρ c) (Proc.devRef .tc main_arg7) = _
  after_results
  all_goals rfl
theorem W1_arg8 : W1 m ρ c (Proc.devRef .tc main_arg8) = m ((c.tc : Thread nD τ).loc main_arg8) := by
  show StableHlo.after hostOps0 (W0 m ρ c) (Proc.devRef .tc main_arg8) = _
  after_results
  all_goals rfl
theorem W1_v13 : W1 m ρ c (Proc.devRef .tc main_v13) = col (norm (m ((c.tc : Thread nD τ).loc main_arg7))) := by
  show StableHlo.after hostOps0 (W0 m ρ c) (Proc.devRef .tc main_v13) = _
  after_results
  all_goals rfl
theorem W1_v14 : W1 m ρ c (Proc.devRef .tc main_v14) = col (norm (m ((c.tc : Thread nD τ).loc main_arg8))) := by
  show StableHlo.after hostOps0 (W0 m ρ c) (Proc.devRef .tc main_v14) = _
  after_results
  all_goals rfl
theorem W1_v15 : W1 m ρ c (Proc.devRef .tc main_v15) = row64 (m ((c.tc : Thread nD τ).loc main_arg2)) := by
  show StableHlo.after hostOps0 (W0 m ρ c) (Proc.devRef .tc main_v15) = _
  after_results
  all_goals rfl
theorem W1_v16 : W1 m ρ c (Proc.devRef .tc main_v16) = row64 (m ((c.tc : Thread nD τ).loc main_arg4)) := by
  show StableHlo.after hostOps0 (W0 m ρ c) (Proc.devRef .tc main_v16) = _
  after_results
  all_goals rfl
theorem W1_v17 : W1 m ρ c (Proc.devRef .tc main_v17) = row40 (m ((c.tc : Thread nD τ).loc main_arg6)) := by
  show StableHlo.after hostOps0 (W0 m ρ c) (Proc.devRef .tc main_v17) = _
  after_results
  all_goals rfl

/-! ## Through the first pallas_call -/

theorem W2_arg3 : W2 m ρ c (Proc.devRef .tc main_arg3) = m ((c.tc : Thread nD τ).loc main_arg3) :=
  (W2_of_ne m ρ c main_arg3 (by decide)).trans (W1_arg3 m ρ c)
theorem W2_arg5 : W2 m ρ c (Proc.devRef .tc main_arg5) = m ((c.tc : Thread nD τ).loc main_arg5) :=
  (W2_of_ne m ρ c main_arg5 (by decide)).trans (W1_arg5 m ρ c)
theorem W2_arg7 : W2 m ρ c (Proc.devRef .tc main_arg7) = m ((c.tc : Thread nD τ).loc main_arg7) :=
  (W2_of_ne m ρ c main_arg7 (by decide)).trans (W1_arg7 m ρ c)
theorem W2_arg8 : W2 m ρ c (Proc.devRef .tc main_arg8) = m ((c.tc : Thread nD τ).loc main_arg8) :=
  (W2_of_ne m ρ c main_arg8 (by decide)).trans (W1_arg8 m ρ c)
theorem W2_v13 : W2 m ρ c (Proc.devRef .tc main_v13) = col (norm (m ((c.tc : Thread nD τ).loc main_arg7))) :=
  ((W2_arr m ρ c 2).trans (((dat0 (V1 m ρ) c).arrAt_in 2 rfl _).trans (A_eq0 (V1 m ρ) c 2))).trans (W1_v13 m ρ c)
theorem W2_v14 : W2 m ρ c (Proc.devRef .tc main_v14) = col (norm (m ((c.tc : Thread nD τ).loc main_arg8))) :=
  (W2_of_ne m ρ c main_v14 (by decide)).trans (W1_v14 m ρ c)
theorem W2_v15 : W2 m ρ c (Proc.devRef .tc main_v15) = row64 (m ((c.tc : Thread nD τ).loc main_arg2)) :=
  (W2_of_ne m ρ c main_v15 (by decide)).trans (W1_v15 m ρ c)
theorem W2_v16 : W2 m ρ c (Proc.devRef .tc main_v16) = row64 (m ((c.tc : Thread nD τ).loc main_arg4)) :=
  (W2_of_ne m ρ c main_v16 (by decide)).trans (W1_v16 m ρ c)
theorem W2_v17 : W2 m ρ c (Proc.devRef .tc main_v17) = row40 (m ((c.tc : Thread nD τ).loc main_arg6)) :=
  (W2_of_ne m ρ c main_v17 (by decide)).trans (W1_v17 m ρ c)

/-- The projected input features. -/
theorem W2_v18 : W2 m ρ c (Proc.devRef .tc main_v18) = project (m ((c.tc : Thread nD τ).loc main_arg0)) (m ((c.tc : Thread nD τ).loc main_arg1)) (col (norm (m ((c.tc : Thread nD τ).loc main_arg7)))) := by
  refine (W2_arr m ρ c 3).trans ((Reg0.final (V1 m ρ) c).trans ?_)
  show project (W1 m ρ c (Proc.devRef .tc main_arg0)) (W1 m ρ c (Proc.devRef .tc main_arg1)) (W1 m ρ c (Proc.devRef .tc main_v13)) = _
  rw [W1_arg0, W1_arg1, W1_v13]

/-! ## Through the second host stretch: the first aggregation -/

theorem W3_arg3 : W3 m ρ c (Proc.devRef .tc main_arg3) = m ((c.tc : Thread nD τ).loc main_arg3) := by
  refine Eq.trans ?_ (W2_arg3 m ρ c)
  show StableHlo.after hostOps1 (W2 m ρ c) (Proc.devRef .tc main_arg3) = _
  after_results
  all_goals rfl
theorem W3_arg5 : W3 m ρ c (Proc.devRef .tc main_arg5) = m ((c.tc : Thread nD τ).loc main_arg5) := by
  refine Eq.trans ?_ (W2_arg5 m ρ c)
  show StableHlo.after hostOps1 (W2 m ρ c) (Proc.devRef .tc main_arg5) = _
  after_results
  all_goals rfl
theorem W3_arg7 : W3 m ρ c (Proc.devRef .tc main_arg7) = m ((c.tc : Thread nD τ).loc main_arg7) := by
  refine Eq.trans ?_ (W2_arg7 m ρ c)
  show StableHlo.after hostOps1 (W2 m ρ c) (Proc.devRef .tc main_arg7) = _
  after_results
  all_goals rfl
theorem W3_arg8 : W3 m ρ c (Proc.devRef .tc main_arg8) = m ((c.tc : Thread nD τ).loc main_arg8) := by
  refine Eq.trans ?_ (W2_arg8 m ρ c)
  show StableHlo.after hostOps1 (W2 m ρ c) (Proc.devRef .tc main_arg8) = _
  after_results
  all_goals rfl
theorem W3_v13 : W3 m ρ c (Proc.devRef .tc main_v13) = col (norm (m ((c.tc : Thread nD τ).loc main_arg7))) := by
  refine Eq.trans ?_ (W2_v13 m ρ c)
  show StableHlo.after hostOps1 (W2 m ρ c) (Proc.devRef .tc main_v13) = _
  after_results
  all_goals rfl
theorem W3_v14 : W3 m ρ c (Proc.devRef .tc main_v14) = col (norm (m ((c.tc : Thread nD τ).loc main_arg8))) := by
  refine Eq.trans ?_ (W2_v14 m ρ c)
  show StableHlo.after hostOps1 (W2 m ρ c) (Proc.devRef .tc main_v14) = _
  after_results
  all_goals rfl
theorem W3_v15 : W3 m ρ c (Proc.devRef .tc main_v15) = row64 (m ((c.tc : Thread nD τ).loc main_arg2)) := by
  refine Eq.trans ?_ (W2_v15 m ρ c)
  show StableHlo.after hostOps1 (W2 m ρ c) (Proc.devRef .tc main_v15) = _
  after_results
  all_goals rfl
theorem W3_v16 : W3 m ρ c (Proc.devRef .tc main_v16) = row64 (m ((c.tc : Thread nD τ).loc main_arg4)) := by
  refine Eq.trans ?_ (W2_v16 m ρ c)
  show StableHlo.after hostOps1 (W2 m ρ c) (Proc.devRef .tc main_v16) = _
  after_results
  all_goals rfl
theorem W3_v17 : W3 m ρ c (Proc.devRef .tc main_v17) = row40 (m ((c.tc : Thread nD τ).loc main_arg6)) := by
  refine Eq.trans ?_ (W2_v17 m ρ c)
  show StableHlo.after hostOps1 (W2 m ρ c) (Proc.devRef .tc main_v17) = _
  after_results
  all_goals rfl

theorem W3_v28 : W3 m ρ c (Proc.devRef .tc main_v28) = agg64 (project (m ((c.tc : Thread nD τ).loc main_arg0)) (m ((c.tc : Thread nD τ).loc main_arg1)) (col (norm (m ((c.tc : Thread nD τ).loc main_arg7))))) (m ((c.tc : Thread nD τ).loc main_arg7)) (m ((c.tc : Thread nD τ).loc main_arg8)) := by
  have e : W3 m ρ c (Proc.devRef .tc main_v28) = agg64 (W2 m ρ c (Proc.devRef .tc main_v18)) (W2 m ρ c (Proc.devRef .tc main_arg7)) (W2 m ρ c (Proc.devRef .tc main_arg8)) := by
    show StableHlo.after hostOps1 (W2 m ρ c) (Proc.devRef .tc main_v28) = _
    after_results
    all_goals rfl
  rw [e, W2_v18, W2_arg7, W2_arg8]

/-! ## Through the second pallas_call -/

theorem W4_arg3 : W4 m ρ c (Proc.devRef .tc main_arg3) = m ((c.tc : Thread nD τ).loc main_arg3) :=
  ((W4_arr m ρ c 3).trans (((dat1 (V3 m ρ) c).arrAt_in 3 rfl _).trans (A_eq1 (V3 m ρ) c 3))).trans (W3_arg3 m ρ c)
theorem W4_arg5 : W4 m ρ c (Proc.devRef .tc main_arg5) = m ((c.tc : Thread nD τ).loc main_arg5) :=
  (W4_of_ne m ρ c main_arg5 (by decide)).trans (W3_arg5 m ρ c)
theorem W4_arg7 : W4 m ρ c (Proc.devRef .tc main_arg7) = m ((c.tc : Thread nD τ).loc main_arg7) :=
  (W4_of_ne m ρ c main_arg7 (by decide)).trans (W3_arg7 m ρ c)
theorem W4_arg8 : W4 m ρ c (Proc.devRef .tc main_arg8) = m ((c.tc : Thread nD τ).loc main_arg8) :=
  (W4_of_ne m ρ c main_arg8 (by decide)).trans (W3_arg8 m ρ c)
theorem W4_v13 : W4 m ρ c (Proc.devRef .tc main_v13) = col (norm (m ((c.tc : Thread nD τ).loc main_arg7))) :=
  ((W4_arr m ρ c 4).trans (((dat1 (V3 m ρ) c).arrAt_in 4 rfl _).trans (A_eq1 (V3 m ρ) c 4))).trans (W3_v13 m ρ c)
theorem W4_v14 : W4 m ρ c (Proc.devRef .tc main_v14) = col (norm (m ((c.tc : Thread nD τ).loc main_arg8))) :=
  ((W4_arr m ρ c 1).trans (((dat1 (V3 m ρ) c).arrAt_in 1 rfl _).trans (A_eq1 (V3 m ρ) c 1))).trans (W3_v14 m ρ c)
theorem W4_v15 : W4 m ρ c (Proc.devRef .tc main_v15) = row64 (m ((c.tc : Thread nD τ).loc main_arg2)) :=
  ((W4_arr m ρ c 2).trans (((dat1 (V3 m ρ) c).arrAt_in 2 rfl _).trans (A_eq1 (V3 m ρ) c 2))).trans (W3_v15 m ρ c)
theorem W4_v16 : W4 m ρ c (Proc.devRef .tc main_v16) = row64 (m ((c.tc : Thread nD τ).loc main_arg4)) :=
  (W4_of_ne m ρ c main_v16 (by decide)).trans (W3_v16 m ρ c)
theorem W4_v17 : W4 m ρ c (Proc.devRef .tc main_v17) = row40 (m ((c.tc : Thread nD τ).loc main_arg6)) :=
  (W4_of_ne m ρ c main_v17 (by decide)).trans (W3_v17 m ρ c)

theorem W4_v29 : W4 m ρ c (Proc.devRef .tc main_v29) = project (relu (finish (agg64 (project (m ((c.tc : Thread nD τ).loc main_arg0)) (m ((c.tc : Thread nD τ).loc main_arg1)) (col (norm (m ((c.tc : Thread nD τ).loc main_arg7))))) (m ((c.tc : Thread nD τ).loc main_arg7)) (m ((c.tc : Thread nD τ).loc main_arg8))) (col (norm (m ((c.tc : Thread nD τ).loc main_arg8)))) (row64 (m ((c.tc : Thread nD τ).loc main_arg2))))) (m ((c.tc : Thread nD τ).loc main_arg3)) (col (norm (m ((c.tc : Thread nD τ).loc main_arg7)))) := by
  refine (W4_arr m ρ c 5).trans ((Reg1.final (V3 m ρ) c).trans ?_)
  show project (relu (finish (W3 m ρ c (Proc.devRef .tc main_v28)) (W3 m ρ c (Proc.devRef .tc main_v14)) (W3 m ρ c (Proc.devRef .tc main_v15)))) (W3 m ρ c (Proc.devRef .tc main_arg3)) (W3 m ρ c (Proc.devRef .tc main_v13)) = _
  rw [W3_v28, W3_v14, W3_v15, W3_arg3, W3_v13]

/-! ## Through the third host stretch: the second aggregation -/

theorem W5_arg3 : W5 m ρ c (Proc.devRef .tc main_arg3) = m ((c.tc : Thread nD τ).loc main_arg3) := by
  refine Eq.trans ?_ (W4_arg3 m ρ c)
  show StableHlo.after hostOps2 (W4 m ρ c) (Proc.devRef .tc main_arg3) = _
  after_results
  all_goals rfl
theorem W5_arg5 : W5 m ρ c (Proc.devRef .tc main_arg5) = m ((c.tc : Thread nD τ).loc main_arg5) := by
  refine Eq.trans ?_ (W4_arg5 m ρ c)
  show StableHlo.after hostOps2 (W4 m ρ c) (Proc.devRef .tc main_arg5) = _
  after_results
  all_goals rfl
theorem W5_arg7 : W5 m ρ c (Proc.devRef .tc main_arg7) = m ((c.tc : Thread nD τ).loc main_arg7) := by
  refine Eq.trans ?_ (W4_arg7 m ρ c)
  show StableHlo.after hostOps2 (W4 m ρ c) (Proc.devRef .tc main_arg7) = _
  after_results
  all_goals rfl
theorem W5_arg8 : W5 m ρ c (Proc.devRef .tc main_arg8) = m ((c.tc : Thread nD τ).loc main_arg8) := by
  refine Eq.trans ?_ (W4_arg8 m ρ c)
  show StableHlo.after hostOps2 (W4 m ρ c) (Proc.devRef .tc main_arg8) = _
  after_results
  all_goals rfl
theorem W5_v13 : W5 m ρ c (Proc.devRef .tc main_v13) = col (norm (m ((c.tc : Thread nD τ).loc main_arg7))) := by
  refine Eq.trans ?_ (W4_v13 m ρ c)
  show StableHlo.after hostOps2 (W4 m ρ c) (Proc.devRef .tc main_v13) = _
  after_results
  all_goals rfl
theorem W5_v14 : W5 m ρ c (Proc.devRef .tc main_v14) = col (norm (m ((c.tc : Thread nD τ).loc main_arg8))) := by
  refine Eq.trans ?_ (W4_v14 m ρ c)
  show StableHlo.after hostOps2 (W4 m ρ c) (Proc.devRef .tc main_v14) = _
  after_results
  all_goals rfl
theorem W5_v15 : W5 m ρ c (Proc.devRef .tc main_v15) = row64 (m ((c.tc : Thread nD τ).loc main_arg2)) := by
  refine Eq.trans ?_ (W4_v15 m ρ c)
  show StableHlo.after hostOps2 (W4 m ρ c) (Proc.devRef .tc main_v15) = _
  after_results
  all_goals rfl
theorem W5_v16 : W5 m ρ c (Proc.devRef .tc main_v16) = row64 (m ((c.tc : Thread nD τ).loc main_arg4)) := by
  refine Eq.trans ?_ (W4_v16 m ρ c)
  show StableHlo.after hostOps2 (W4 m ρ c) (Proc.devRef .tc main_v16) = _
  after_results
  all_goals rfl
theorem W5_v17 : W5 m ρ c (Proc.devRef .tc main_v17) = row40 (m ((c.tc : Thread nD τ).loc main_arg6)) := by
  refine Eq.trans ?_ (W4_v17 m ρ c)
  show StableHlo.after hostOps2 (W4 m ρ c) (Proc.devRef .tc main_v17) = _
  after_results
  all_goals rfl

theorem W5_v39 : W5 m ρ c (Proc.devRef .tc main_v39) = agg64 (project (relu (finish (agg64 (project (m ((c.tc : Thread nD τ).loc main_arg0)) (m ((c.tc : Thread nD τ).loc main_arg1)) (col (norm (m ((c.tc : Thread nD τ).loc main_arg7))))) (m ((c.tc : Thread nD τ).loc main_arg7)) (m ((c.tc : Thread nD τ).loc main_arg8))) (col (norm (m ((c.tc : Thread nD τ).loc main_arg8)))) (row64 (m ((c.tc : Thread nD τ).loc main_arg2))))) (m ((c.tc : Thread nD τ).loc main_arg3)) (col (norm (m ((c.tc : Thread nD τ).loc main_arg7))))) (m ((c.tc : Thread nD τ).loc main_arg7)) (m ((c.tc : Thread nD τ).loc main_arg8)) := by
  have e : W5 m ρ c (Proc.devRef .tc main_v39) = agg64 (W4 m ρ c (Proc.devRef .tc main_v29)) (W4 m ρ c (Proc.devRef .tc main_arg7)) (W4 m ρ c (Proc.devRef .tc main_arg8)) := by
    show StableHlo.after hostOps2 (W4 m ρ c) (Proc.devRef .tc main_v39) = _
    after_results
    all_goals rfl
  rw [e, W4_v29, W4_arg7, W4_arg8]

/-! ## Through the third pallas_call -/

theorem W6_arg3 : W6 m ρ c (Proc.devRef .tc main_arg3) = m ((c.tc : Thread nD τ).loc main_arg3) :=
  (W6_of_ne m ρ c main_arg3 (by decide)).trans (W5_arg3 m ρ c)
theorem W6_arg5 : W6 m ρ c (Proc.devRef .tc main_arg5) = m ((c.tc : Thread nD τ).loc main_arg5) :=
  ((W6_arr m ρ c 3).trans (((dat2 (V5 m ρ) c).arrAt_in 3 rfl _).trans (A_eq2 (V5 m ρ) c 3))).trans (W5_arg5 m ρ c)
theorem W6_arg7 : W6 m ρ c (Proc.devRef .tc main_arg7) = m ((c.tc : Thread nD τ).loc main_arg7) :=
  (W6_of_ne m ρ c main_arg7 (by decide)).trans (W5_arg7 m ρ c)
theorem W6_arg8 : W6 m ρ c (Proc.devRef .tc main_arg8) = m ((c.tc : Thread nD τ).loc main_arg8) :=
  (W6_of_ne m ρ c main_arg8 (by decide)).trans (W5_arg8 m ρ c)
theorem W6_v13 : W6 m ρ c (Proc.devRef .tc main_v13) = col (norm (m ((c.tc : Thread nD τ).loc main_arg7))) :=
  ((W6_arr m ρ c 4).trans (((dat2 (V5 m ρ) c).arrAt_in 4 rfl _).trans (A_eq2 (V5 m ρ) c 4))).trans (W5_v13 m ρ c)
theorem W6_v14 : W6 m ρ c (Proc.devRef .tc main_v14) = col (norm (m ((c.tc : Thread nD τ).loc main_arg8))) :=
  ((W6_arr m ρ c 1).trans (((dat2 (V5 m ρ) c).arrAt_in 1 rfl _).trans (A_eq2 (V5 m ρ) c 1))).trans (W5_v14 m ρ c)
theorem W6_v15 : W6 m ρ c (Proc.devRef .tc main_v15) = row64 (m ((c.tc : Thread nD τ).loc main_arg2)) :=
  (W6_of_ne m ρ c main_v15 (by decide)).trans (W5_v15 m ρ c)
theorem W6_v16 : W6 m ρ c (Proc.devRef .tc main_v16) = row64 (m ((c.tc : Thread nD τ).loc main_arg4)) :=
  ((W6_arr m ρ c 2).trans (((dat2 (V5 m ρ) c).arrAt_in 2 rfl _).trans (A_eq2 (V5 m ρ) c 2))).trans (W5_v16 m ρ c)
theorem W6_v17 : W6 m ρ c (Proc.devRef .tc main_v17) = row40 (m ((c.tc : Thread nD τ).loc main_arg6)) :=
  (W6_of_ne m ρ c main_v17 (by decide)).trans (W5_v17 m ρ c)

theorem W6_v40 : W6 m ρ c (Proc.devRef .tc main_v40) = project (relu (finish (agg64 (project (relu (finish (agg64 (project (m ((c.tc : Thread nD τ).loc main_arg0)) (m ((c.tc : Thread nD τ).loc main_arg1)) (col (norm (m ((c.tc : Thread nD τ).loc main_arg7))))) (m ((c.tc : Thread nD τ).loc main_arg7)) (m ((c.tc : Thread nD τ).loc main_arg8))) (col (norm (m ((c.tc : Thread nD τ).loc main_arg8)))) (row64 (m ((c.tc : Thread nD τ).loc main_arg2))))) (m ((c.tc : Thread nD τ).loc main_arg3)) (col (norm (m ((c.tc : Thread nD τ).loc main_arg7))))) (m ((c.tc : Thread nD τ).loc main_arg7)) (m ((c.tc : Thread nD τ).loc main_arg8))) (col (norm (m ((c.tc : Thread nD τ).loc main_arg8)))) (row64 (m ((c.tc : Thread nD τ).loc main_arg4))))) (m ((c.tc : Thread nD τ).loc main_arg5)) (col (norm (m ((c.tc : Thread nD τ).loc main_arg7)))) := by
  refine (W6_arr m ρ c 5).trans ((Reg2.final (V5 m ρ) c).trans ?_)
  show project (relu (finish (W5 m ρ c (Proc.devRef .tc main_v39)) (W5 m ρ c (Proc.devRef .tc main_v14)) (W5 m ρ c (Proc.devRef .tc main_v16)))) (W5 m ρ c (Proc.devRef .tc main_arg5)) (W5 m ρ c (Proc.devRef .tc main_v13)) = _
  rw [W5_v39, W5_v14, W5_v16, W5_arg5, W5_v13]

/-! ## Through the last host stretch: the third aggregation -/

theorem W7_arg3 : W7 m ρ c (Proc.devRef .tc main_arg3) = m ((c.tc : Thread nD τ).loc main_arg3) := by
  refine Eq.trans ?_ (W6_arg3 m ρ c)
  show StableHlo.after hostOps3 (W6 m ρ c) (Proc.devRef .tc main_arg3) = _
  after_results
  all_goals rfl
theorem W7_arg5 : W7 m ρ c (Proc.devRef .tc main_arg5) = m ((c.tc : Thread nD τ).loc main_arg5) := by
  refine Eq.trans ?_ (W6_arg5 m ρ c)
  show StableHlo.after hostOps3 (W6 m ρ c) (Proc.devRef .tc main_arg5) = _
  after_results
  all_goals rfl
theorem W7_arg7 : W7 m ρ c (Proc.devRef .tc main_arg7) = m ((c.tc : Thread nD τ).loc main_arg7) := by
  refine Eq.trans ?_ (W6_arg7 m ρ c)
  show StableHlo.after hostOps3 (W6 m ρ c) (Proc.devRef .tc main_arg7) = _
  after_results
  all_goals rfl
theorem W7_arg8 : W7 m ρ c (Proc.devRef .tc main_arg8) = m ((c.tc : Thread nD τ).loc main_arg8) := by
  refine Eq.trans ?_ (W6_arg8 m ρ c)
  show StableHlo.after hostOps3 (W6 m ρ c) (Proc.devRef .tc main_arg8) = _
  after_results
  all_goals rfl
theorem W7_v13 : W7 m ρ c (Proc.devRef .tc main_v13) = col (norm (m ((c.tc : Thread nD τ).loc main_arg7))) := by
  refine Eq.trans ?_ (W6_v13 m ρ c)
  show StableHlo.after hostOps3 (W6 m ρ c) (Proc.devRef .tc main_v13) = _
  after_results
  all_goals rfl
theorem W7_v14 : W7 m ρ c (Proc.devRef .tc main_v14) = col (norm (m ((c.tc : Thread nD τ).loc main_arg8))) := by
  refine Eq.trans ?_ (W6_v14 m ρ c)
  show StableHlo.after hostOps3 (W6 m ρ c) (Proc.devRef .tc main_v14) = _
  after_results
  all_goals rfl
theorem W7_v15 : W7 m ρ c (Proc.devRef .tc main_v15) = row64 (m ((c.tc : Thread nD τ).loc main_arg2)) := by
  refine Eq.trans ?_ (W6_v15 m ρ c)
  show StableHlo.after hostOps3 (W6 m ρ c) (Proc.devRef .tc main_v15) = _
  after_results
  all_goals rfl
theorem W7_v16 : W7 m ρ c (Proc.devRef .tc main_v16) = row64 (m ((c.tc : Thread nD τ).loc main_arg4)) := by
  refine Eq.trans ?_ (W6_v16 m ρ c)
  show StableHlo.after hostOps3 (W6 m ρ c) (Proc.devRef .tc main_v16) = _
  after_results
  all_goals rfl
theorem W7_v17 : W7 m ρ c (Proc.devRef .tc main_v17) = row40 (m ((c.tc : Thread nD τ).loc main_arg6)) := by
  refine Eq.trans ?_ (W6_v17 m ρ c)
  show StableHlo.after hostOps3 (W6 m ρ c) (Proc.devRef .tc main_v17) = _
  after_results
  all_goals rfl

theorem W7_v50 : W7 m ρ c (Proc.devRef .tc main_v50) = agg40 (project (relu (finish (agg64 (project (relu (finish (agg64 (project (m ((c.tc : Thread nD τ).loc main_arg0)) (m ((c.tc : Thread nD τ).loc main_arg1)) (col (norm (m ((c.tc : Thread nD τ).loc main_arg7))))) (m ((c.tc : Thread nD τ).loc main_arg7)) (m ((c.tc : Thread nD τ).loc main_arg8))) (col (norm (m ((c.tc : Thread nD τ).loc main_arg8)))) (row64 (m ((c.tc : Thread nD τ).loc main_arg2))))) (m ((c.tc : Thread nD τ).loc main_arg3)) (col (norm (m ((c.tc : Thread nD τ).loc main_arg7))))) (m ((c.tc : Thread nD τ).loc main_arg7)) (m ((c.tc : Thread nD τ).loc main_arg8))) (col (norm (m ((c.tc : Thread nD τ).loc main_arg8)))) (row64 (m ((c.tc : Thread nD τ).loc main_arg4))))) (m ((c.tc : Thread nD τ).loc main_arg5)) (col (norm (m ((c.tc : Thread nD τ).loc main_arg7))))) (m ((c.tc : Thread nD τ).loc main_arg7)) (m ((c.tc : Thread nD τ).loc main_arg8)) := by
  have e : W7 m ρ c (Proc.devRef .tc main_v50) = agg40 (W6 m ρ c (Proc.devRef .tc main_v40)) (W6 m ρ c (Proc.devRef .tc main_arg7)) (W6 m ρ c (Proc.devRef .tc main_arg8)) := by
    show StableHlo.after hostOps3 (W6 m ρ c) (Proc.devRef .tc main_v50) = _
    after_results_simp
    all_goals rfl
  rw [e, W6_v40, W6_arg7, W6_arg8]

/-! ## Through the last pallas_call: the result -/

/-- THE RESULT: the last boundary's contents at the result buffer are `network` of the launch memory's arguments. -/
theorem result : W8 m ρ c (Proc.devRef .tc main_v51)
    = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (m ((c.tc : Thread nD τ).loc main_arg8)) := by
  refine (W8_arr m ρ c 3).trans ((Reg3.final (V7 m ρ) c).trans ?_)
  show finish (W7 m ρ c (Proc.devRef .tc main_v50)) (W7 m ρ c (Proc.devRef .tc main_v14)) (W7 m ρ c (Proc.devRef .tc main_v17)) = _
  rw [W7_v50, W7_v14, W7_v17]
  rfl

end Cert.KernelIdeal.Chain

end
-- ==== Proof.lean ====
/-
  The certificate: a three-layer graph convolution (degree-normalised on both sides) computed by four pallas_calls among
  host gathers and scatter-adds, against its plain reference.

  Both programs compute the same chain. Per layer: the features times the weights, each row scaled by its node's source
  norm (`project`); the rows gathered along the edges' sources and summed into their destinations (the host's gather and
  scatter-add, the same operations on both sides, never opened); each row scaled by the destination norm plus the bias
  (`finish`), and for the first two layers the maximum with zero. The kernel fuses `finish`, the maximum and the next
  layer's `project` into one pallas_call over 20 row blocks and rounds the product's operands to bf16, which is the
  identity on extended reals; the reference writes each step as broadcasts and elementwise operations. Entry by entry the
  steps agree, with no use of finiteness: the precondition is not opened.

  * Region0 … Region3: each pallas_call's result array as one function of the arrays it finds (the 20 blocks tile it).
  * Chain: the kernel's buffers boundary by boundary; the result buffer ends at `network` of the arguments.
  * Network: `network`, and the reference run's result term as `network` of its arguments.
  * KernelRun: the kernel's run with its result buffer named.
  * LibGraphConvLayer: `project`, `finish`, `relu` entry by entry, and the host's broadcasts as those functions.
  The frames of the two kernel programs are the generated ones (KernelFrameP, KernelIdealFrameP); the reference's frame is its
  generated run with the result dropped; the idealization rewrote nothing, so `preserves` is trivial.
-/
import proofs.«174319_j5128190951839_1_alg».proof.Defs
import proofs.«174319_j5128190951839_1_alg».proof.Proof.Gen.Kernel
import proofs.«174319_j5128190951839_1_alg».proof.Proof.Gen.KernelIdeal
import proofs.«174319_j5128190951839_1_alg».proof.Proof.Gen.ReferenceIdeal
import proofs.«174319_j5128190951839_1_alg».proof.Proof.Gen.Pre_finite_inputs
import proofs.«174319_j5128190951839_1_alg».proof.Proof.KernelFrameP
import proofs.«174319_j5128190951839_1_alg».proof.Proof.KernelIdealFrameP
import proofs.«174319_j5128190951839_1_alg».proof.Proof.Gen.ReferenceIdeal.Run
import proofs.«174319_j5128190951839_1_alg».proof.Proof.KernelRun
import proofs.«174319_j5128190951839_1_alg».proof.Proof.Chain
import proofs.«174319_j5128190951839_1_alg».proof.Proof.Network
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.GenP.frame m ρ

theorem frame_kernelIdeal : Cert.frame_KernelIdeal := fun m ρ _ => Cert.KernelIdeal.GenP.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the result at `network` of the (agreeing) arguments. -/
theorem algebraic : Cert.algebraic_KernelIdeal_ReferenceIdeal := by
  intro m ρ m' ρ' _ hagree
  refine ⟨fun c => Cert.Network.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.result m ρ c), (h c).2⟩)
      (Cert.KernelIdeal.Run.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8⟩ := hagree c
    rw [Cert.Network.result_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
